-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x2048x768 .f32) (main_arg1 : FVec F S2304x768 .f32) (main_arg2 : FVec F S768x768 .f32) (main_arg3 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S768x2304 : Shape := ⟨2, ![768, 2304]⟩
abbrev S1x768 : Shape := ⟨2, ![1, 768]⟩
abbrev S1x512x768 : Shape := ⟨3, ![1, 512, 768]⟩
abbrev S512x768 : Shape := ⟨2, ![512, 768]⟩
abbrev S512x2304 : Shape := ⟨2, ![512, 2304]⟩
abbrev S1x256x768 : Shape := ⟨3, ![1, 256, 768]⟩
abbrev S1x2048x768 : Shape := ⟨3, ![1, 2048, 768]⟩
abbrev S256x768 : Shape := ⟨2, ![256, 768]⟩
abbrev S2048x768 : Shape := ⟨2, ![2048, 768]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 20
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S768x2304, .f32⟩
  | .hbm, ⟨5, _⟩ => ⟨S768x2304, .bf16⟩
  | .hbm, ⟨6, _⟩ => ⟨S768x768, .f32⟩
  | .hbm, ⟨7, _⟩ => ⟨S768x768, .bf16⟩
  | .hbm, ⟨8, _⟩ => ⟨S1x768, .f32⟩
  | .hbm, ⟨9, _⟩ => ⟨S4x2048x768, .bf16⟩
  | .hbm, ⟨10, _⟩ => ⟨S4x2048x768, .bf16⟩
  | .hbm, ⟨11, _⟩ => ⟨S4x2048x768, .bf16⟩
  | .hbm, ⟨12, _⟩ => ⟨S4x2048x768, .f32⟩
  | .local _ .vmem, ⟨0, _⟩ => ⟨S1x512x768, .f32⟩
  | .local _ .vmem, ⟨1, _⟩ => ⟨S1x512x768, .f32⟩
  | .local _ .vmem, ⟨2, _⟩ => ⟨S768x2304, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x512x768, .bf16⟩
  | .local _ .vmem, ⟨9, _⟩ => ⟨S1x256x768, .bf16⟩
  | .local _ .vmem, ⟨10, _⟩ => ⟨S1x256x768, .bf16⟩
  | .local _ .vmem, ⟨11, _⟩ => ⟨S1x2048x768, .bf16⟩
  | .local _ .vmem, ⟨12, _⟩ => ⟨S1x2048x768, .bf16⟩
  | .local _ .vmem, ⟨13, _⟩ => ⟨S1x2048x768, .bf16⟩
  | .local _ .vmem, ⟨14, _⟩ => ⟨S1x2048x768, .bf16⟩
  | .local _ .vmem, ⟨15, _⟩ => ⟨S768x768, .bf16⟩
  | .local _ .vmem, ⟨16, _⟩ => ⟨S1x768, .f32⟩
  | .local _ .vmem, ⟨17, _⟩ => ⟨S1x256x768, .f32⟩
  | .local _ .vmem, ⟨18, _⟩ => ⟨S1x256x768, .f32⟩
  | .local _ .vmem, ⟨19, _⟩ => ⟨S256x768, .bf16⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S2304x768_S768x2304_1_0 : S2304x768.Transposes [1, 0] S768x2304
  bitsLt_bf16_f32 : FTy.bits .bf16 < FTy.bits .f32
  transposes_S768x768_S768x768_1_0 : S768x768.Transposes [1, 0] S768x768
  shapeCasts_S768_S1x768 : S768.ShapeCasts S1x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  slices_S512x2304_o0_0_S512x768 : S512x2304.Slices ![0, 0] S512x768
  shapeCasts_S512x768_S1x512x768 : S512x768.ShapeCasts S1x512x768
  packedbf16_S1x512x768_S1x512x768_0_0_0 : (Rect.unit (s := S1x512x768) ![0, 0, 0] S1x512x768.size inb_S1x512x768_S1x512x768_0_0_0).PackedRows (EltTy.packing .bf16)
  slices_S512x2304_o0_768_S512x768 : S512x2304.Slices ![0, 768] S512x768
  slices_S512x2304_o0_1536_S512x768 : S512x2304.Slices ![0, 1536] S512x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  slices_S256x768_o0_0_S256x64 : S256x768.Slices ![0, 0] S256x64
  slices_S2048x768_o0_0_S2048x64 : S2048x768.Slices ![0, 0] S2048x64
  reduces_S256x2048_S256 : S256x2048.Reduces [1] S256
  shapeCasts_S256_S256x1 : S256.ShapeCasts S256x1
  broadcasts_S256x1_S256x2048 : S256x1.Broadcasts S256x2048
  inb_S256x768_S256x64_0_0 : ∀ a, (![0, 0] : Fin 2 → Nat) a + S256x64.size a ≤ S256x768.size a
  h_S256x64 : 0 < S256x64.numel
  shapeCasts_S256x64_S256x64 : S256x64.ShapeCasts S256x64
  packedbf16_S256x768_S256x64_0_0 : (Rect.unit (s := S256x768) ![0, 0] S256x64.size inb_S256x768_S256x64_0_0).PackedRows (EltTy.packing .bf16)
  slices_S256x768_o0_64_S256x64 : S256x768.Slices ![0, 64] S256x64
  slices_S2048x768_o0_64_S2048x64 : S2048x768.Slices ![0, 64] S2048x64
  inb_S256x768_S256x64_0_64 : ∀ a, (![0, 64] : Fin 2 → Nat) a + S256x64.size a ≤ S256x768.size a
  packedbf16_S256x768_S256x64_0_64 : (Rect.unit (s := S256x768) ![0, 64] S256x64.size inb_S256x768_S256x64_0_64).PackedRows (EltTy.packing .bf16)
  slices_S256x768_o0_128_S256x64 : S256x768.Slices ![0, 128] S256x64
  slices_S2048x768_o0_128_S2048x64 : S2048x768.Slices ![0, 128] S2048x64
  inb_S256x768_S256x64_0_128 : ∀ a, (![0, 128] : Fin 2 → Nat) a + S256x64.size a ≤ S256x768.size a
  packedbf16_S256x768_S256x64_0_128 : (Rect.unit (s := S256x768) ![0, 128] S256x64.size inb_S256x768_S256x64_0_128).PackedRows (EltTy.packing .bf16)
  slices_S256x768_o0_192_S256x64 : S256x768.Slices ![0, 192] S256x64
  slices_S2048x768_o0_192_S2048x64 : S2048x768.Slices ![0, 192] S2048x64
  inb_S256x768_S256x64_0_192 : ∀ a, (![0, 192] : Fin 2 → Nat) a + S256x64.size a ≤ S256x768.size a
  packedbf16_S256x768_S256x64_0_192 : (Rect.unit (s := S256x768) ![0, 192] S256x64.size inb_S256x768_S256x64_0_192).PackedRows (EltTy.packing .bf16)
  slices_S256x768_o0_256_S256x64 : S256x768.Slices ![0, 256] S256x64
  slices_S2048x768_o0_256_S2048x64 : S2048x768.Slices ![0, 256] S2048x64
  inb_S256x768_S256x64_0_256 : ∀ a, (![0, 256] : Fin 2 → Nat) a + S256x64.size a ≤ S256x768.size a
  packedbf16_S256x768_S256x64_0_256 : (Rect.unit (s := S256x768) ![0, 256] S256x64.size inb_S256x768_S256x64_0_256).PackedRows (EltTy.packing .bf16)
  slices_S256x768_o0_320_S256x64 : S256x768.Slices ![0, 320] S256x64
  slices_S2048x768_o0_320_S2048x64 : S2048x768.Slices ![0, 320] S2048x64
  inb_S256x768_S256x64_0_320 : ∀ a, (![0, 320] : Fin 2 → Nat) a + S256x64.size a ≤ S256x768.size a
  packedbf16_S256x768_S256x64_0_320 : (Rect.unit (s := S256x768) ![0, 320] S256x64.size inb_S256x768_S256x64_0_320).PackedRows (EltTy.packing .bf16)
  slices_S256x768_o0_384_S256x64 : S256x768.Slices ![0, 384] S256x64
  slices_S2048x768_o0_384_S2048x64 : S2048x768.Slices ![0, 384] S2048x64
  inb_S256x768_S256x64_0_384 : ∀ a, (![0, 384] : Fin 2 → Nat) a + S256x64.size a ≤ S256x768.size a
  packedbf16_S256x768_S256x64_0_384 : (Rect.unit (s := S256x768) ![0, 384] S256x64.size inb_S256x768_S256x64_0_384).PackedRows (EltTy.packing .bf16)
  slices_S256x768_o0_448_S256x64 : S256x768.Slices ![0, 448] S256x64
  slices_S2048x768_o0_448_S2048x64 : S2048x768.Slices ![0, 448] S2048x64
  inb_S256x768_S256x64_0_448 : ∀ a, (![0, 448] : Fin 2 → Nat) a + S256x64.size a ≤ S256x768.size a
  packedbf16_S256x768_S256x64_0_448 : (Rect.unit (s := S256x768) ![0, 448] S256x64.size inb_S256x768_S256x64_0_448).PackedRows (EltTy.packing .bf16)
  slices_S256x768_o0_512_S256x64 : S256x768.Slices ![0, 512] S256x64
  slices_S2048x768_o0_512_S2048x64 : S2048x768.Slices ![0, 512] S2048x64
  inb_S256x768_S256x64_0_512 : ∀ a, (![0, 512] : Fin 2 → Nat) a + S256x64.size a ≤ S256x768.size a
  packedbf16_S256x768_S256x64_0_512 : (Rect.unit (s := S256x768) ![0, 512] S256x64.size inb_S256x768_S256x64_0_512).PackedRows (EltTy.packing .bf16)
  slices_S256x768_o0_576_S256x64 : S256x768.Slices ![0, 576] S256x64
  slices_S2048x768_o0_576_S2048x64 : S2048x768.Slices ![0, 576] S2048x64
  inb_S256x768_S256x64_0_576 : ∀ a, (![0, 576] : Fin 2 → Nat) a + S256x64.size a ≤ S256x768.size a
  packedbf16_S256x768_S256x64_0_576 : (Rect.unit (s := S256x768) ![0, 576] S256x64.size inb_S256x768_S256x64_0_576).PackedRows (EltTy.packing .bf16)
  slices_S256x768_o0_640_S256x64 : S256x768.Slices ![0, 640] S256x64
  slices_S2048x768_o0_640_S2048x64 : S2048x768.Slices ![0, 640] S2048x64
  inb_S256x768_S256x64_0_640 : ∀ a, (![0, 640] : Fin 2 → Nat) a + S256x64.size a ≤ S256x768.size a
  packedbf16_S256x768_S256x64_0_640 : (Rect.unit (s := S256x768) ![0, 640] S256x64.size inb_S256x768_S256x64_0_640).PackedRows (EltTy.packing .bf16)
  slices_S256x768_o0_704_S256x64 : S256x768.Slices ![0, 704] S256x64
  slices_S2048x768_o0_704_S2048x64 : S2048x768.Slices ![0, 704] S2048x64
  inb_S256x768_S256x64_0_704 : ∀ a, (![0, 704] : Fin 2 → Nat) a + S256x64.size a ≤ S256x768.size a
  packedbf16_S256x768_S256x64_0_704 : (Rect.unit (s := S256x768) ![0, 704] S256x64.size inb_S256x768_S256x64_0_704).PackedRows (EltTy.packing .bf16)
  inb_S256x768_S256x768_0_0 : ∀ a, (![0, 0] : Fin 2 → Nat) a + S256x768.size a ≤ S256x768.size a
  h_S256x768 : 0 < S256x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  shapeCasts_S256x768_S1x256x768 : S256x768.ShapeCasts S1x256x768
  dot_S512x768_S768x2304_S512x2304_1_0_0_1_n_n_wf : DotDims.WF S512x768 S768x2304 S512x2304 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x2048x768.size a
  hwx0_0 : ∀ i : grid0.Coords, EltTy.bits .f32 = 32 ∨ (Rect.block (s := S4x2048x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x768.size a ≤ S4x2048x768.size a
  hwx0_2 : ∀ i : grid0.Coords, EltTy.bits .bf16 = 32 ∨ (Rect.block (s := S4x2048x768) S1x512x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x768.size a ≤ S4x2048x768.size a
  hwx0_3 : ∀ i : grid0.Coords, EltTy.bits .bf16 = 32 ∨ (Rect.block (s := S4x2048x768) S1x512x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x768.size a ≤ S4x2048x768.size a
  hwx0_4 : ∀ i : grid0.Coords, EltTy.bits .bf16 = 32 ∨ (Rect.block (s := S4x2048x768) S1x512x768.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x768.size a ≤ S4x2048x768.size a
  hwx1_0 : ∀ i : grid1.Coords, EltTy.bits .bf16 = 32 ∨ (Rect.block (s := S4x2048x768) S1x256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S4x2048x768.size a
  hwx1_1 : ∀ i : grid1.Coords, EltTy.bits .bf16 = 32 ∨ (Rect.block (s := S4x2048x768) S1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S4x2048x768.size a
  hwx1_2 : ∀ i : grid1.Coords, EltTy.bits .bf16 = 32 ∨ (Rect.block (s := S4x2048x768) S1x2048x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x768.size a ≤ S4x2048x768.size a
  hwx1_5 : ∀ i : grid1.Coords, EltTy.bits .f32 = 32 ∨ (Rect.block (s := S4x2048x768) S1x256x768.size (cc1_transform_5 i) (hinb1_5 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S1x512x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S1x512x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_2) S1x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5_0) S1x256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x256x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S4x2048x2304 : Shape := ⟨3, ![4, 2048, 2304]⟩
abbrev S4x2048x3x12x64 : Shape := ⟨5, ![4, 2048, 3, 12, 64]⟩
abbrev S4x2048x1x12x64 : Shape := ⟨5, ![4, 2048, 1, 12, 64]⟩
abbrev S4x2048x12x64 : Shape := ⟨4, ![4, 2048, 12, 64]⟩
abbrev S4x12x2048x64 : Shape := ⟨4, ![4, 12, 2048, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S1x1x768 : Shape := ⟨3, ![1, 1, 768]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S4x2048x2304, .f32⟩
  | .hbm, ⟨5, _⟩ => ⟨S4x2048x3x12x64, .f32⟩
  | .hbm, ⟨6, _⟩ => ⟨S4x2048x1x12x64, .f32⟩
  | .hbm, ⟨7, _⟩ => ⟨S4x2048x12x64, .f32⟩
  | .hbm, ⟨8, _⟩ => ⟨S4x12x2048x64, .f32⟩
  | .hbm, ⟨9, _⟩ => ⟨S4x2048x1x12x64, .f32⟩
  | .hbm, ⟨10, _⟩ => ⟨S4x2048x12x64, .f32⟩
  | .hbm, ⟨11, _⟩ => ⟨S4x12x2048x64, .f32⟩
  | .hbm, ⟨12, _⟩ => ⟨S4x2048x1x12x64, .f32⟩
  | .hbm, ⟨13, _⟩ => ⟨S4x2048x12x64, .f32⟩
  | .hbm, ⟨14, _⟩ => ⟨S4x12x2048x64, .f32⟩
  | .hbm, ⟨15, _⟩ => ⟨S4x12x2048x2048, .f32⟩
  | .hbm, ⟨16, _⟩ => ⟨S_, .f32⟩
  | .hbm, ⟨17, _⟩ => ⟨S_, .f32⟩
  | .hbm, ⟨18, _⟩ => ⟨S4x12x2048x2048, .f32⟩
  | .hbm, ⟨19, _⟩ => ⟨S4x12x2048x2048, .f32⟩
  | .hbm, ⟨20, _⟩ => ⟨S_, .f32⟩
  | .hbm, ⟨21, _⟩ => ⟨S4x12x2048, .f32⟩
  | .hbm, ⟨22, _⟩ => ⟨S_, .f32⟩
  | .hbm, ⟨23, _⟩ => ⟨S4x12x2048, .f32⟩
  | .hbm, ⟨24, _⟩ => ⟨S4x12x2048, .f32⟩
  | .hbm, ⟨25, _⟩ => ⟨S4x12x2048x1, .f32⟩
  | .hbm, ⟨26, _⟩ => ⟨S4x12x2048x2048, .f32⟩
  | .hbm, ⟨27, _⟩ => ⟨S4x12x2048x2048, .f32⟩
  | .hbm, ⟨28, _⟩ => ⟨S4x12x2048x2048, .f32⟩
  | .hbm, ⟨29, _⟩ => ⟨S_, .f32⟩
  | .hbm, ⟨30, _⟩ => ⟨S4x12x2048, .f32⟩
  | .hbm, ⟨31, _⟩ => ⟨S4x12x2048x1, .f32⟩
  | .hbm, ⟨32, _⟩ => ⟨S4x12x2048x2048, .f32⟩
  | .hbm, ⟨33, _⟩ => ⟨S4x12x2048x2048, .f32⟩
  | .hbm, ⟨34, _⟩ => ⟨S4x12x2048x64, .f32⟩
  | .hbm, ⟨35, _⟩ => ⟨S4x2048x12x64, .f32⟩
  | .hbm, ⟨36, _⟩ => ⟨S4x2048x768, .f32⟩
  | .hbm, ⟨37, _⟩ => ⟨S4x2048x768, .f32⟩
  | .hbm, ⟨38, _⟩ => ⟨S1x1x768, .f32⟩
  | .hbm, ⟨39, _⟩ => ⟨S4x2048x768, .f32⟩
  | .hbm, ⟨40, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]

class Facts₀ : Prop where
  shapeCasts_S4x2048x2304_S4x2048x3x12x64 : S4x2048x2304.ShapeCasts S4x2048x3x12x64
  slices_S4x2048x3x12x64_S4x2048x1x12x64_0_0_0_0_0 : S4x2048x3x12x64.Slices ![0, 0, 0, 0, 0] S4x2048x1x12x64
  shapeCasts_S4x2048x1x12x64_S4x2048x12x64 : S4x2048x1x12x64.ShapeCasts S4x2048x12x64
  transposes_S4x2048x12x64_S4x12x2048x64_0_2_1_3 : S4x2048x12x64.Transposes [0, 2, 1, 3] S4x12x2048x64
  slices_S4x2048x3x12x64_S4x2048x1x12x64_0_0_1_0_0 : S4x2048x3x12x64.Slices ![0, 0, 1, 0, 0] S4x2048x1x12x64
  slices_S4x2048x3x12x64_S4x2048x1x12x64_0_0_2_0_0 : S4x2048x3x12x64.Slices ![0, 0, 2, 0, 0] S4x2048x1x12x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.Spec.lean ====
/-
  The function both programs compute, written once over plain coordinates.

  A batch of 4 sequences of 2048 tokens, each a row of 768 features, is projected by one 2304 x 768 matrix into
  queries, keys and values (the three consecutive 768-wide thirds of the projected row). The 768 features are
  12 heads of 64 lanes: feature 64 h + j is lane j of head h. Per batch entry and head, a query token s scores
  every key token t by the inner product of their 64 lanes, scaled by 1/8 = 1/sqrt 64; the scores of a row are
  shifted by their maximum, exponentiated, and normalised by their sum (a softmax over t); the head's output
  for s is the average of the value tokens with these weights. The 12 head outputs side by side form a 768-wide
  row again, which a 768 x 768 matrix and a bias take to the result.

  Everything is over the extended reals, with the operations' conventions at the infinities as the programs'
  instance has them, so that no finiteness is needed to identify the two programs with this function.
-/
import Idealize.ShloMosaic.PureOps.Ideal
import Idealize.ShloMosaic.PureOps.Ideal.Laws
import Idealize.ShloMosaic.Lib.ValueIdx

noncomputable section

namespace Cert.Attn

open Idealize.ShloMosaic

/-- An array of 4 x 2048 rows of 768 features. -/
abbrev Rows := Fin 4 → Fin 2048 → Fin 768 → EReal

/-- Feature `64 h + j`: lane `j` of head `h`. -/
def col (h : Fin 12) (j : Fin 64) : Fin 768 := ⟨64 * h.val + j.val, by omega⟩
/-- The head a feature belongs to, -/
def hd (c : Fin 768) : Fin 12 := ⟨c.val / 64, by omega⟩
/-- and its lane within the head. -/
def lane (c : Fin 768) : Fin 64 := ⟨c.val % 64, by omega⟩

theorem col_hd_lane (c : Fin 768) : col (hd c) (lane c) = c := by
  apply Fin.ext; simp only [col, hd, lane]; omega
theorem hd_col (h : Fin 12) (j : Fin 64) : hd (col h j) = h := by
  apply Fin.ext; simp only [col, hd]; omega
theorem lane_col (h : Fin 12) (j : Fin 64) : lane (col h j) = j := by
  apply Fin.ext; simp only [col, lane]; omega

/-- Entry `e` of the projected row of token `(b, s)`: the inner product of the token with row `e` of the matrix. -/
def proj (x : Rows) (w : Fin 2304 → Fin 768 → EReal) (b : Fin 4) (s : Fin 2048) (e : Fin 2304) : EReal :=
  ∑ d : Fin 768, x b s d * w e d

/-- Queries, keys and values: the three thirds of the projected row. -/
def qOf (x : Rows) (w : Fin 2304 → Fin 768 → EReal) : Rows := fun b s c => proj x w b s ⟨c.val, by omega⟩
def kOf (x : Rows) (w : Fin 2304 → Fin 768 → EReal) : Rows := fun b s c => proj x w b s ⟨768 + c.val, by omega⟩
def vOf (x : Rows) (w : Fin 2304 → Fin 768 → EReal) : Rows := fun b s c => proj x w b s ⟨1536 + c.val, by omega⟩

/-- The scaled score of key token `t` for query token `s` in head `h`. -/
def score (q k : Rows) (b : Fin 4) (h : Fin 12) (s t : Fin 2048) : EReal :=
  (∑ d : Fin 64, q b s (col h d) * k b t (col h d)) * ((1 / 8 : ℝ) : EReal)

/-- The largest score of a row (the bottom element if there were none). -/
def rowMax (q k : Rows) (b : Fin 4) (h : Fin 12) (s : Fin 2048) : EReal :=
  (Finset.univ : Finset (Fin 2048)).fold max (⊥ : EReal) (fun t => score q k b h s t)

/-- The unnormalised weight of key token `t`, -/
def weight (q k : Rows) (b : Fin 4) (h : Fin 12) (s t : Fin 2048) : EReal :=
  Ideal.exp (score q k b h s t - rowMax q k b h s)

/-- the row's normaliser, -/
def denom (q k : Rows) (b : Fin 4) (h : Fin 12) (s : Fin 2048) : EReal :=
  ∑ t : Fin 2048, weight q k b h s t

/-- and the softmax weight. -/
def prob (q k : Rows) (b : Fin 4) (h : Fin 12) (s t : Fin 2048) : EReal :=
  Ideal.div (weight q k b h s t) (denom q k b h s)

/-- Lane `j` of head `h`'s output for query token `s`: the weighted average of the value tokens. -/
def mix (q k v : Rows) (b : Fin 4) (s : Fin 2048) (h : Fin 12) (j : Fin 64) : EReal :=
  ∑ t : Fin 2048, prob q k b h s t * v b t (col h j)

/-- The output projection of the concatenated heads, plus the bias. -/
def out (q k v : Rows) (wo : Fin 768 → Fin 768 → EReal) (bo : Fin 768 → EReal) (b : Fin 4) (s : Fin 2048) (e : Fin 768) : EReal :=
  (∑ d : Fin 768, mix q k v b s (hd d) (lane d) * wo e d) + bo e

/-- The whole function of the four arguments. -/
def result (x : Rows) (w : Fin 2304 → Fin 768 → EReal) (wo : Fin 768 → Fin 768 → EReal) (bo : Fin 768 → EReal) :
    Fin 4 → Fin 2048 → Fin 768 → EReal :=
  out (qOf x w) (kOf x w) (vOf x w) wo bo

/-! ## The arguments as arrays -/

open Idealize.ShloMosaic.ValueIdx in
/-- A 4 x 2048 x 768 array read by coordinates. -/
def rows (a : (⟨3, ![4, 2048, 768]⟩ : Shape).Idx → EReal) : Rows := fun b s d => a (ix3 b s d)
open Idealize.ShloMosaic.ValueIdx in
/-- A matrix read by coordinates. -/
def mat {n m : Nat} (a : (⟨2, ![n, m]⟩ : Shape).Idx → EReal) : Fin n → Fin m → EReal := fun e d => a (ix2 e d)
open Idealize.ShloMosaic.ValueIdx in
/-- A vector read by its coordinate. -/
def vec {n : Nat} (a : (⟨1, ![n]⟩ : Shape).Idx → EReal) : Fin n → EReal := fun e => a (ix1 e)

/-- The result array as a function of the four argument arrays. -/
def resultArr (x0 : (⟨3, ![4, 2048, 768]⟩ : Shape).Idx → EReal) (x1 : (⟨2, ![2304, 768]⟩ : Shape).Idx → EReal)
    (x2 : (⟨2, ![768, 768]⟩ : Shape).Idx → EReal) (x3 : (⟨1, ![768]⟩ : Shape).Idx → EReal) :
    (⟨3, ![4, 2048, 768]⟩ : Shape).Idx → EReal :=
  fun i => result (rows x0) (mat x1) (mat x2) (vec x3) (i 0) (i 1) (i 2)

/-- The query, key and value arrays the first stage leaves: the thirds of the projection, as arrays. -/
def qArr (x0 : (⟨3, ![4, 2048, 768]⟩ : Shape).Idx → EReal) (x1 : (⟨2, ![2304, 768]⟩ : Shape).Idx → EReal) :
    (⟨3, ![4, 2048, 768]⟩ : Shape).Idx → EReal := fun i => qOf (rows x0) (mat x1) (i 0) (i 1) (i 2)
def kArr (x0 : (⟨3, ![4, 2048, 768]⟩ : Shape).Idx → EReal) (x1 : (⟨2, ![2304, 768]⟩ : Shape).Idx → EReal) :
    (⟨3, ![4, 2048, 768]⟩ : Shape).Idx → EReal := fun i => kOf (rows x0) (mat x1) (i 0) (i 1) (i 2)
def vArr (x0 : (⟨3, ![4, 2048, 768]⟩ : Shape).Idx → EReal) (x1 : (⟨2, ![2304, 768]⟩ : Shape).Idx → EReal) :
    (⟨3, ![4, 2048, 768]⟩ : Shape).Idx → EReal := fun i => vOf (rows x0) (mat x1) (i 0) (i 1) (i 2)
/-- The output matrix transposed (entry `(d, e)` is entry `(e, d)` of the argument), and the bias as one row. -/
def woT (x2 : (⟨2, ![768, 768]⟩ : Shape).Idx → EReal) : (⟨2, ![768, 768]⟩ : Shape).Idx → EReal :=
  fun i => x2 (Idealize.ShloMosaic.ValueIdx.ix2 (i 1) (i 0))
def bRow (x3 : (⟨1, ![768]⟩ : Shape).Idx → EReal) : (⟨2, ![1, 768]⟩ : Shape).Idx → EReal :=
  fun i => x3 (Idealize.ShloMosaic.ValueIdx.ix1 (i 1))

/-- The result as a function of the query, key and value arrays, the transposed output matrix and the bias row:
    what the second stage computes from what it is given. -/
def stage2Arr (qa ka va : (⟨3, ![4, 2048, 768]⟩ : Shape).Idx → EReal) (wT : (⟨2, ![768, 768]⟩ : Shape).Idx → EReal)
    (br : (⟨2, ![1, 768]⟩ : Shape).Idx → EReal) : (⟨3, ![4, 2048, 768]⟩ : Shape).Idx → EReal :=
  fun i => out (rows qa) (rows ka) (rows va) (fun e d => wT (Idealize.ShloMosaic.ValueIdx.ix2 d e))
    (fun e => br (Idealize.ShloMosaic.ValueIdx.ix2 0 e)) (i 0) (i 1) (i 2)

/-- The two stages compose to the whole function. -/
theorem stage2Arr_eq (x0 : (⟨3, ![4, 2048, 768]⟩ : Shape).Idx → EReal) (x1 : (⟨2, ![2304, 768]⟩ : Shape).Idx → EReal)
    (x2 : (⟨2, ![768, 768]⟩ : Shape).Idx → EReal) (x3 : (⟨1, ![768]⟩ : Shape).Idx → EReal) :
    stage2Arr (qArr x0 x1) (kArr x0 x1) (vArr x0 x1) (woT x2) (bRow x3) = resultArr x0 x1 x2 x3 := rfl

/-! ## The three float literals the programs spell -/

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `-inf` denotes the bottom element. -/
theorem ofBits_neg_inf : Ideal.ofBits .f32 0xFF800000#32 = (⊥ : EReal) := by
  simp [Ideal.ofBits, Ideal.ieee]

/-- The square root of 64 is 8, so dividing by it is multiplying by 1/8, on every extended real. -/
theorem div_sqrt_64 (x : EReal) : Ideal.div x (Ideal.sqrt (Ideal.ofBits .f32 0x42800000#32)) = x * ((1 / 8 : ℝ) : EReal) := by
  have h8 : Real.sqrt 64 = 8 := by
    rw [show (64 : ℝ) = 8 ^ 2 by norm_num]; exact Real.sqrt_sq (by norm_num)
  have hs : Ideal.sqrt ((64 : ℝ) : EReal) = ((8 : ℝ) : EReal) := by
    show (if (64 : ℝ) < 0 then (⊥ : EReal) else (Real.sqrt 64 : EReal)) = _
    rw [if_neg (by norm_num), h8]
  rw [ofBits_64, hs, Ideal.div_coe (by norm_num : (8 : ℝ) ≠ 0)]

end Cert.Attn

end
-- ==== Proof.Stage1.lean ====
/-
  The first stage, read as mathematics.

  Before the first stage the weight matrix is transposed (entry (d, e) of the transpose is entry (e, d) of the
  argument), the output matrix likewise, and the bias becomes a single row; narrowing a number's format changes
  nothing over the extended reals. The first stage then visits 16 points (batch entry b, quarter p): at each it
  multiplies the 512 tokens 512 p … 512 p + 511 of entry b by the whole transposed weight matrix and stores the three
  768-wide thirds of the 2304 product columns as that block of the query, key and value arrays. Entry (r, e) of the
  product is the inner product of token r with row e of the weight argument, which is the projection of the
  specification; the 16 blocks tile each array, so after the stage the three arrays are the specification's query,
  key and value arrays, and the transposed output matrix and the bias row are untouched by it.
-/
import proofs.«111470_j2207613190171_2_alg».proof.Proof.Gen.KernelIdeal.Frame
import proofs.«111470_j2207613190171_2_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

namespace Cert.Attn.Stage1

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## What precedes the first stage -/

/-- The weight matrix as the first stage finds it: transposed, then narrowed (which changes nothing here). -/
theorem host_v1 (c : Dev nD) :
    V1 m ρ c main_v1 =
      truncf (F := Ideal) .bf16 (transpose (α := Ideal .f32) S768x2304 [1, 0] (m ((c : Thread nD τ).loc main_arg1)) transposes_S2304x768_S768x2304_1_0) bitsLt_bf16_f32 := by
  dsimp only [V1, W1, W0, hostOps0]
  after_results

/-- Entry `(d, e)` of it is entry `(e, d)` of the argument. -/
theorem host_v1_apply (c : Dev nD) (d : Fin 768) (e : Fin 2304) :
    V1 m ρ c main_v1 (ix2 d e) = m ((c : Thread nD τ).loc main_arg1) (ix2 e d) := by
  rw [host_v1]
  show transpose (α := Ideal .f32) S768x2304 [1, 0] (m ((c : Thread nD τ).loc main_arg1)) transposes_S2304x768_S768x2304_1_0 (ix2 d e) = _
  refine transpose_apply _ _ _ _ _ fun b => ?_
  match b with
  | ⟨0, _⟩ => rfl
  | ⟨1, _⟩ => rfl

/-- The output matrix, transposed and narrowed, -/
theorem host_v3 (c : Dev nD) :
    V1 m ρ c main_v3 =
      truncf (F := Ideal) .bf16 (transpose (α := Ideal .f32) S768x768 [1, 0] (m ((c : Thread nD τ).loc main_arg2)) transposes_S768x768_S768x768_1_0) bitsLt_bf16_f32 := by
  dsimp only [V1, W1, W0, hostOps0]
  after_results

/-- is the specification's transposed output matrix. -/
theorem host_v3_eq (c : Dev nD) : V1 m ρ c main_v3 = Cert.Attn.woT (m ((c : Thread nD τ).loc main_arg2)) := by
  rw [host_v3]
  funext i
  show transpose (α := Ideal .f32) S768x768 [1, 0] (m ((c : Thread nD τ).loc main_arg2)) transposes_S768x768_S768x768_1_0 i = _
  unfold Cert.Attn.woT
  refine transpose_apply _ _ _ _ _ fun b => ?_
  match b with
  | ⟨0, _⟩ => rfl
  | ⟨1, _⟩ => rfl

/-- The bias recast from 768 entries to one row of 768, -/
theorem host_v4 (c : Dev nD) :
    V1 m ρ c main_v4 = shapeCast (α := Ideal .f32) S1x768 (m ((c : Thread nD τ).loc main_arg3)) shapeCasts_S768_S1x768 := by
  dsimp only [V1, W1, W0, hostOps0]
  after_results
  rfl

/-- is the specification's bias row: both positions count the same entry. -/
theorem host_v4_eq (c : Dev nD) : V1 m ρ c main_v4 = Cert.Attn.bRow (m ((c : Thread nD τ).loc main_arg3)) := by
  rw [host_v4]
  funext i
  obtain ⟨a, e, rfl⟩ : ∃ (a : Fin 1) (e : Fin 768), i = ix2 a e := ⟨i 0, i 1, eq_ix2 i⟩
  show shapeCast (α := Ideal .f32) S1x768 (m ((c : Thread nD τ).loc main_arg3)) shapeCasts_S768_S1x768 (ix2 a e) = m ((c : Thread nD τ).loc main_arg3) (ix1 e)
  refine shapeCast_apply _ _ _ (ix1 e) ?_
  show (S768.rowMajor (ix1 e)).val = (S1x768.rowMajor (ix2 a e)).val
  rw [Shape.rowMajor_val_one, Shape.rowMajor_val_two]
  show e.val = a.val * 768 + e.val
  omega

/-- The token array is as launched. -/
theorem host_arg0 (c : Dev nD) : V1 m ρ c main_arg0 = m ((c : Thread nD τ).loc main_arg0) := by
  dsimp only [V1, W1, W0, hostOps0]
  after_results

/-! ## The projection's contraction, coordinate by coordinate -/

/-- In the product of a 512 x 768 block with a 768 x 2304 matrix, the left factor's row is the output's row, -/
theorem lhs_0 (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
/-- its column the summation index, -/
theorem lhs_1 (i : S512x2304.Idx) (q : dot_S512x768_S768x2304_S512x2304_1_0_0_1_n_n.contr.Idx) :
    (dot_S512x768_S768x2304_S512x2304_1_0_0_1_n_n.lhsIdx i q 1).val = (q ⟨0, by decide⟩).val :=
  dot_S512x768_S768x2304_S512x2304_1_0_0_1_n_n.lhsIdx_val_of_single rfl i q
/-- the right factor's row the summation index, -/
theorem rhs_0 (i : S512x2304.Idx) (q : dot_S512x768_S768x2304_S512x2304_1_0_0_1_n_n.contr.Idx) :
    (dot_S512x768_S768x2304_S512x2304_1_0_0_1_n_n.rhsIdx i q 0).val = (q ⟨0, by decide⟩).val :=
  dot_S512x768_S768x2304_S512x2304_1_0_0_1_n_n.rhsIdx_val_of_single rfl i q
/-- and its column the output's column. -/
theorem rhs_1 (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- The projected block at a row and a column: the inner product of the token's features with the column. -/
theorem pay1_at (xb : Vec Ideal S1x512x768 .f32) (wb : Vec Ideal S768x2304 .bf16) (r : Fin 512) (e : Fin 2304) :
    k0_pay1 xb wb (ix2 r e) = ∑ d : Fin 768, xb (ix3 (0 : Fin 1) r d) * wb (ix2 d e) := by
  unfold k0_pay1
  show FloatOps.matmul dot_S512x768_S768x2304_S512x2304_1_0_0_1_n_n none _ _ (constant (F := Ideal) S512x2304 .f32 0x00000000#32) (ix2 r e) = _
  rw [Ideal.matmul_constant_zero_apply, ← Equiv.sum_comp (contrEquiv1 dot_S512x768_S768x2304_S512x2304_1_0_0_1_n_n 768 rfl rfl).symm]
  refine Finset.sum_congr rfl fun k _ => ?_
  have hk := contrEquiv1_symm_val dot_S512x768_S768x2304_S512x2304_1_0_0_1_n_n 768 rfl rfl k
  have el : dot_S512x768_S768x2304_S512x2304_1_0_0_1_n_n.lhsIdx (ix2 r e) ((contrEquiv1 dot_S512x768_S768x2304_S512x2304_1_0_0_1_n_n 768 rfl rfl).symm k) = ix2 r k := funext fun a => Fin.ext (by
    match a with
    | ⟨0, _⟩ => exact lhs_0 _ _
    | ⟨1, _⟩ => exact (lhs_1 _ _).trans hk)
  have er : dot_S512x768_S768x2304_S512x2304_1_0_0_1_n_n.rhsIdx (ix2 r e) ((contrEquiv1 dot_S512x768_S768x2304_S512x2304_1_0_0_1_n_n 768 rfl rfl).symm k) = ix2 k e := funext fun a => Fin.ext (by
    match a with
    | ⟨0, _⟩ => exact (rhs_0 _ _).trans hk
    | ⟨1, _⟩ => exact rhs_1 _ _)
  rw [el, er]
  have e1 : shapeCast S512x768 xb shapeCasts_S1x512x768_S512x768 (ix2 r k) = xb (ix3 (0 : Fin 1) r k) :=
    shapeCast_apply _ _ _ _ (by
      rw [Shape.rowMajor_val_three, Shape.rowMajor_val_two]
      show ((0 : Fin 1).val * 512 + r.val) * 768 + k.val = r.val * 768 + k.val
      simp)
  have e2 : shapeCast S768x2304 wb shapeCasts_S768x2304_S768x2304 = wb := shapeCast_self _ _
  show shapeCast S512x768 xb shapeCasts_S1x512x768_S512x768 (ix2 r k) * shapeCast S768x2304 wb shapeCasts_S768x2304_S768x2304 (ix2 k e) = _
  rw [e1, e2]

/-- The three stored blocks are the three thirds of the projected block's columns. The first: columns 0 … 767. -/
theorem pay2_at (xb : Vec Ideal S1x512x768 .f32) (wb : Vec Ideal S768x2304 .bf16) (r : Fin 512) (cc : Fin 768) :
    k0_pay2 xb wb (ix3 (0 : Fin 1) r cc) = ∑ d : Fin 768, xb (ix3 (0 : Fin 1) r d) * wb (ix2 d (⟨cc.val, by omega⟩ : Fin 2304)) := by
  unfold k0_pay2
  refine (shapeCast_apply _ _ _ (ix2 r cc) ?_).trans ?_
  · rw [Shape.rowMajor_val_three, Shape.rowMajor_val_two]
    show r.val * 768 + cc.val = ((0 : Fin 1).val * 512 + r.val) * 768 + cc.val
    simp
  refine (extractStridedSlice_apply _ _ _ _ (ix2 r (⟨cc.val, by omega⟩ : Fin 2304)) fun a => ?_).trans (pay1_at xb wb r _)
  match a with
  | ⟨0, _⟩ => show r.val = 0 + r.val; omega
  | ⟨1, _⟩ => show cc.val = 0 + cc.val; omega

/-- The second third: columns 768 … 1535. -/
theorem pay3_at (xb : Vec Ideal S1x512x768 .f32) (wb : Vec Ideal S768x2304 .bf16) (r : Fin 512) (cc : Fin 768) :
    k0_pay3 xb wb (ix3 (0 : Fin 1) r cc) = ∑ d : Fin 768, xb (ix3 (0 : Fin 1) r d) * wb (ix2 d (⟨768 + cc.val, by omega⟩ : Fin 2304)) := by
  unfold k0_pay3
  refine (shapeCast_apply _ _ _ (ix2 r cc) ?_).trans ?_
  · rw [Shape.rowMajor_val_three, Shape.rowMajor_val_two]
    show r.val * 768 + cc.val = ((0 : Fin 1).val * 512 + r.val) * 768 + cc.val
    simp
  refine (extractStridedSlice_apply _ _ _ _ (ix2 r (⟨768 + cc.val, by omega⟩ : Fin 2304)) fun a => ?_).trans (pay1_at xb wb r _)
  match a with
  | ⟨0, _⟩ => show r.val = 0 + r.val; omega
  | ⟨1, _⟩ => show 768 + cc.val = 768 + cc.val; rfl

/-- The last third: columns 1536 … 2303. -/
theorem pay4_at (xb : Vec Ideal S1x512x768 .f32) (wb : Vec Ideal S768x2304 .bf16) (r : Fin 512) (cc : Fin 768) :
    k0_pay4 xb wb (ix3 (0 : Fin 1) r cc) = ∑ d : Fin 768, xb (ix3 (0 : Fin 1) r d) * wb (ix2 d (⟨1536 + cc.val, by omega⟩ : Fin 2304)) := by
  unfold k0_pay4
  refine (shapeCast_apply _ _ _ (ix2 r cc) ?_).trans ?_
  · rw [Shape.rowMajor_val_three, Shape.rowMajor_val_two]
    show r.val * 768 + cc.val = ((0 : Fin 1).val * 512 + r.val) * 768 + cc.val
    simp
  refine (extractStridedSlice_apply _ _ _ _ (ix2 r (⟨1536 + cc.val, by omega⟩ : Fin 2304)) fun a => ?_).trans (pay1_at xb wb r _)
  match a with
  | ⟨0, _⟩ => show r.val = 0 + r.val; omega
  | ⟨1, _⟩ => show 1536 + cc.val = 1536 + cc.val; rfl

/-! ## From blocks to arrays -/

/-- Zero offsets, however spelt. -/
theorem hz3 : (![0, 0, 0] : Fin 3 → Nat) = fun _ => 0 := funext fun a => by fin_cases a <;> rfl
theorem hz2 : (![0, 0] : Fin 2 → Nat) = fun _ => 0 := funext fun a => by fin_cases a <;> rfl

/-- Each output block after the body is one store of the whole block: the stored value itself. -/
theorem out2_eq (xb : Vec Ideal S1x512x768 .f32) (wb : Vec Ideal S768x2304 .bf16) : out0_2 xb wb = k0_pay2 xb wb := by
  unfold out0_2
  rw [View.canon_unit_zero hz3]
  simp only [View.ld_unit_zero (S := S1x512x768) hz3, View.ld_unit_zero (S := S768x2304) hz2]

/-- The block index of every operand at grid point `t`: the token blocks and the three output blocks sit at
    (batch entry `t / 4`, quarter `t % 4`); the weight block is the whole matrix at every point. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 2) = 0 ∧ win0_1.index t (1 : Fin 2) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0) :=
  (by decide +kernel : ∀ t : Fin grid0.N, _)

/-- The token block at a grid point: one batch entry's 512 consecutive tokens. -/
theorem xblk_apply (c : Dev nD) (t : Fin cfg0.N) (r : Fin 512) (d : Fin 768) (b : Fin 4) (s : Fin 2048)
    (hb : b.val = t.val / 4) (hs : s.val = t.val % 4 * 512 + r.val) :
    iblk0 (V1 m ρ) c 0 t (ix3 (0 : Fin 1) r d) = m ((c : Thread nD τ).loc main_arg0) (ix3 b s d) := by
  obtain ⟨⟨e0, e1, e2⟩, -⟩ := idx_facts t
  unfold iblk0
  rw [View.read_apply]
  show V1 m ρ c main_arg0 _ = _
  rw [host_arg0]
  refine congrArg (m ((c : Thread nD τ).loc main_arg0)) ?_
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 512 + 1 * r.val = s.val; rw [e1, hs]; omega
  | ⟨2, _⟩ => show win0_0.index t (2 : Fin 3) * 768 + 1 * d.val = d.val; rw [e2]; omega

/-- The weight block at every grid point: the whole transposed matrix. -/
theorem wblk_apply (c : Dev nD) (t : Fin cfg0.N) (d : Fin 768) (e : Fin 2304) :
    iblk0 (V1 m ρ) c 1 t (ix2 d e) = m ((c : Thread nD τ).loc main_arg1) (ix2 e d) := by
  obtain ⟨-, ⟨e0, e1⟩, -⟩ := idx_facts t
  unfold iblk0
  rw [View.read_apply]
  show V1 m ρ c main_v1 _ = _
  refine Eq.trans (congrArg (V1 m ρ c main_v1) ?_) (host_v1_apply m ρ c d e)
  funext a
  apply Fin.ext
  match a with
  | ⟨0, _⟩ => show win0_1.index t (0 : Fin 2) * 768 + 1 * d.val = d.val; rw [e0]; omega
  | ⟨1, _⟩ => show win0_1.index t (1 : Fin 2) * 2304 + 1 * e.val = e.val; rw [e1]; omega

theorem out3_eq (xb : Vec Ideal S1x512x768 .f32) (wb : Vec Ideal S768x2304 .bf16) : out0_3 xb wb = k0_pay3 xb wb := by
  unfold out0_3
  rw [View.canon_unit_zero hz3]
  simp only [View.ld_unit_zero (S := S1x512x768) hz3, View.ld_unit_zero (S := S768x2304) hz2]

theorem out4_eq (xb : Vec Ideal S1x512x768 .f32) (wb : Vec Ideal S768x2304 .bf16) : out0_4 xb wb = k0_pay4 xb wb := by
  unfold out0_4
  rw [View.canon_unit_zero hz3]
  simp only [View.ld_unit_zero (S := S1x512x768) hz3, View.ld_unit_zero (S := S768x2304) hz2]

/-- An entry of the query array from its coordinates. -/
theorem q_at (X0 : S4x2048x768.Idx → EReal) (X1 : S2304x768.Idx → EReal) (i : S4x2048x768.Idx) (b : Fin 4) (s : Fin 2048) (cc : Fin 768)
    (h0 : (i 0).val = b.val) (h1 : (i 1).val = s.val) (h2 : (i 2).val = cc.val) :
    Cert.Attn.qArr X0 X1 i = ∑ d : Fin 768, X0 (ix3 b s d) * X1 (ix2 (⟨cc.val, by omega⟩ : Fin 2304) d) := by
  obtain rfl : i = ix3 b s cc := funext fun a => Fin.ext (by
    match a with
    | ⟨0, _⟩ => exact h0
    | ⟨1, _⟩ => exact h1
    | ⟨2, _⟩ => exact h2)
  rfl

/-- What a grid point writes back to the query array is its block of the query array. -/
theorem flushed2_eq (c : Dev nD) (t : Fin cfg0.N) :
    (dat0 (V1 m ρ) c).flushed 2 t = ((cfg0.win 2).blk t).view.read (Elt Ideal)
      (Cert.Attn.qArr (m ((c : Thread nD τ).loc main_arg0)) (m ((c : Thread nD τ).loc main_arg1))) := by
  show (cfg0.win 2).cut (grid0.coords t) ((dat0 (V1 m ρ) c).after 2 t) = _
  rw [after0_2, out2_eq]
  have hN : t.val < 16 := lt_of_lt_of_eq t.isLt (show cfg0.N = 16 from N_0)
  obtain ⟨-, -, ⟨e0, e1, e2⟩, -⟩ := idx_facts t
  funext j
  obtain ⟨a, r, cc, rfl⟩ : ∃ (a : Fin 1) (r : Fin 512) (cc : Fin 768), j = ix3 a r cc := ⟨j 0, j 1, j 2, eq_ix3 j⟩
  obtain rfl : a = 0 := Subsingleton.elim _ _
  rw [View.read_apply]
  show k0_pay2 (iblk0 (V1 m ρ) c 0 t) (iblk0 (V1 m ρ) c 1 t) (ix3 (0 : Fin 1) r cc) = _
  refine (pay2_at (iblk0 (V1 m ρ) c 0 t) (iblk0 (V1 m ρ) c 1 t) r cc).trans ?_
  refine Eq.trans ?_ (q_at _ _ _ (⟨t.val / 4, by omega⟩ : Fin 4) (⟨t.val % 4 * 512 + r.val, by omega⟩ : Fin 2048) cc ?_ ?_ ?_).symm
  · refine Finset.sum_congr rfl fun d _ => ?_
    rw [xblk_apply m ρ c t r d (⟨t.val / 4, by omega⟩ : Fin 4) (⟨t.val % 4 * 512 + r.val, by omega⟩ : Fin 2048) rfl rfl, wblk_apply m ρ c t d]
  · show win0_2.index t (0 : Fin 3) * 1 + 1 * (0 : Fin 1).val = t.val / 4; rw [e0]; simp
  · show win0_2.index t (1 : Fin 3) * 512 + 1 * r.val = t.val % 4 * 512 + r.val; rw [e1]; omega
  · show win0_2.index t (2 : Fin 3) * 768 + 1 * cc.val = cc.val; rw [e2]; omega

/-- An index lies in a point's block iff each coordinate lies in the block's range on its axis. -/
theorem mem_blk2 (t : Fin cfg0.N) (i : S4x2048x768.Idx) :
    i ∈ ((cfg0.win 2).blk t).view.set ↔ ∀ a : Fin 3, win0_2.index t a * S1x512x768.size a ≤ (i a).val ∧ (i a).val < win0_2.index t a * S1x512x768.size a + S1x512x768.size a := by
  show i ∈ ((View.whole main_v5_0).slice (win0_2.rect t)).set ↔ _
  rw [View.set_slice_whole, Rect.mem_set_unit]
  exact Iff.rfl

/-- Every token row lies in the block of the point (batch entry, row / 512). -/
theorem cover2 (i : S4x2048x768.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 768 := (i 2).isLt
  have hN : cfg0.N = 16 := N_0
  refine ⟨⟨(i 0).val * 4 + (i 1).val / 512, by rw [hN]; omega⟩, flush0_2 _, ?_⟩
  rw [mem_blk2]
  obtain ⟨-, -, ⟨e0, e1, e2⟩, -⟩ := idx_facts ⟨(i 0).val * 4 + (i 1).val / 512, by rw [hN]; omega⟩
  intro a
  match a with
  | ⟨0, _⟩ => show win0_2.index _ (0 : Fin 3) * 1 ≤ (i 0).val ∧ (i 0).val < win0_2.index _ (0 : Fin 3) * 1 + 1; rw [e0]; show ((i 0).val * 4 + (i 1).val / 512) / 4 * 1 ≤ (i 0).val ∧ (i 0).val < ((i 0).val * 4 + (i 1).val / 512) / 4 * 1 + 1; omega
  | ⟨1, _⟩ => show win0_2.index _ (1 : Fin 3) * 512 ≤ (i 1).val ∧ (i 1).val < win0_2.index _ (1 : Fin 3) * 512 + 512; rw [e1]; show ((i 0).val * 4 + (i 1).val / 512) % 4 * 512 ≤ (i 1).val ∧ (i 1).val < ((i 0).val * 4 + (i 1).val / 512) % 4 * 512 + 512; omega
  | ⟨2, _⟩ => show win0_2.index _ (2 : Fin 3) * 768 ≤ (i 2).val ∧ (i 2).val < win0_2.index _ (2 : Fin 3) * 768 + 768; rw [e2]; omega

/-- The query array after the first stage. -/
theorem final2 (c : Dev nD) : (dat0 (V1 m ρ) c).arrAt 2 cfg0.N =
    Cert.Attn.qArr (m ((c : Thread nD τ).loc main_arg0)) (m ((c : Thread nD τ).loc main_arg1)) :=
  (dat0 (V1 m ρ) c).arrAt_eq_of_cover 2 _ (fun t _ => flushed2_eq m ρ c t) cover2

/-- What the second stage finds in its first input array: the queries. -/
theorem found0 (c : Dev nD) : V2 m ρ c (Pipeline.arrRef spec1 0) =
    Cert.Attn.qArr (m ((c : Thread nD τ).loc main_arg0)) (m ((c : Thread nD τ).loc main_arg1)) :=
  (W2_arr m ρ c 2).trans (final2 m ρ c)

/-- An entry of the key array from its coordinates. -/
theorem k_at (X0 : S4x2048x768.Idx → EReal) (X1 : S2304x768.Idx → EReal) (i : S4x2048x768.Idx) (b : Fin 4) (s : Fin 2048) (cc : Fin 768)
    (h0 : (i 0).val = b.val) (h1 : (i 1).val = s.val) (h2 : (i 2).val = cc.val) :
    Cert.Attn.kArr X0 X1 i = ∑ d : Fin 768, X0 (ix3 b s d) * X1 (ix2 (⟨768 + cc.val, by omega⟩ : Fin 2304) d) := by
  obtain rfl : i = ix3 b s cc := funext fun a => Fin.ext (by
    match a with
    | ⟨0, _⟩ => exact h0
    | ⟨1, _⟩ => exact h1
    | ⟨2, _⟩ => exact h2)
  rfl

/-- What a grid point writes back to the key array is its block of the key array. -/
theorem flushed3_eq (c : Dev nD) (t : Fin cfg0.N) :
    (dat0 (V1 m ρ) c).flushed 3 t = ((cfg0.win 3).blk t).view.read (Elt Ideal)
      (Cert.Attn.kArr (m ((c : Thread nD τ).loc main_arg0)) (m ((c : Thread nD τ).loc main_arg1))) := by
  show (cfg0.win 3).cut (grid0.coords t) ((dat0 (V1 m ρ) c).after 3 t) = _
  rw [after0_3, out3_eq]
  have hN : t.val < 16 := lt_of_lt_of_eq t.isLt (show cfg0.N = 16 from N_0)
  obtain ⟨-, -, -, ⟨e0, e1, e2⟩, -⟩ := idx_facts t
  funext j
  obtain ⟨a, r, cc, rfl⟩ : ∃ (a : Fin 1) (r : Fin 512) (cc : Fin 768), j = ix3 a r cc := ⟨j 0, j 1, j 2, eq_ix3 j⟩
  obtain rfl : a = 0 := Subsingleton.elim _ _
  rw [View.read_apply]
  show k0_pay3 (iblk0 (V1 m ρ) c 0 t) (iblk0 (V1 m ρ) c 1 t) (ix3 (0 : Fin 1) r cc) = _
  refine (pay3_at (iblk0 (V1 m ρ) c 0 t) (iblk0 (V1 m ρ) c 1 t) r cc).trans ?_
  refine Eq.trans ?_ (k_at _ _ _ (⟨t.val / 4, by omega⟩ : Fin 4) (⟨t.val % 4 * 512 + r.val, by omega⟩ : Fin 2048) cc ?_ ?_ ?_).symm
  · refine Finset.sum_congr rfl fun d _ => ?_
    rw [xblk_apply m ρ c t r d (⟨t.val / 4, by omega⟩ : Fin 4) (⟨t.val % 4 * 512 + r.val, by omega⟩ : Fin 2048) rfl rfl, wblk_apply m ρ c t d]
  · show win0_3.index t (0 : Fin 3) * 1 + 1 * (0 : Fin 1).val = t.val / 4; rw [e0]; simp
  · show win0_3.index t (1 : Fin 3) * 512 + 1 * r.val = t.val % 4 * 512 + r.val; rw [e1]; omega
  · show win0_3.index t (2 : Fin 3) * 768 + 1 * cc.val = cc.val; rw [e2]; omega

/-- An index lies in a point's block iff each coordinate lies in the block's range on its axis. -/
theorem mem_blk3 (t : Fin cfg0.N) (i : S4x2048x768.Idx) :
    i ∈ ((cfg0.win 3).blk t).view.set ↔ ∀ a : Fin 3, win0_3.index t a * S1x512x768.size a ≤ (i a).val ∧ (i a).val < win0_3.index t a * S1x512x768.size a + S1x512x768.size a := by
  show i ∈ ((View.whole main_v5_1).slice (win0_3.rect t)).set ↔ _
  rw [View.set_slice_whole, Rect.mem_set_unit]
  exact Iff.rfl

/-- Every token row lies in the block of the point (batch entry, row / 512). -/
theorem cover3 (i : S4x2048x768.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 768 := (i 2).isLt
  have hN : cfg0.N = 16 := N_0
  refine ⟨⟨(i 0).val * 4 + (i 1).val / 512, by rw [hN]; omega⟩, flush0_3 _, ?_⟩
  rw [mem_blk3]
  obtain ⟨-, -, -, ⟨e0, e1, e2⟩, -⟩ := idx_facts ⟨(i 0).val * 4 + (i 1).val / 512, by rw [hN]; omega⟩
  intro a
  match a with
  | ⟨0, _⟩ => show win0_3.index _ (0 : Fin 3) * 1 ≤ (i 0).val ∧ (i 0).val < win0_3.index _ (0 : Fin 3) * 1 + 1; rw [e0]; show ((i 0).val * 4 + (i 1).val / 512) / 4 * 1 ≤ (i 0).val ∧ (i 0).val < ((i 0).val * 4 + (i 1).val / 512) / 4 * 1 + 1; omega
  | ⟨1, _⟩ => show win0_3.index _ (1 : Fin 3) * 512 ≤ (i 1).val ∧ (i 1).val < win0_3.index _ (1 : Fin 3) * 512 + 512; rw [e1]; show ((i 0).val * 4 + (i 1).val / 512) % 4 * 512 ≤ (i 1).val ∧ (i 1).val < ((i 0).val * 4 + (i 1).val / 512) % 4 * 512 + 512; omega
  | ⟨2, _⟩ => show win0_3.index _ (2 : Fin 3) * 768 ≤ (i 2).val ∧ (i 2).val < win0_3.index _ (2 : Fin 3) * 768 + 768; rw [e2]; omega

/-- The key array after the first stage. -/
theorem final3 (c : Dev nD) : (dat0 (V1 m ρ) c).arrAt 3 cfg0.N =
    Cert.Attn.kArr (m ((c : Thread nD τ).loc main_arg0)) (m ((c : Thread nD τ).loc main_arg1)) :=
  (dat0 (V1 m ρ) c).arrAt_eq_of_cover 3 _ (fun t _ => flushed3_eq m ρ c t) cover3

/-- What the second stage finds in its second input array: the keys. -/
theorem found1 (c : Dev nD) : V2 m ρ c (Pipeline.arrRef spec1 1) =
    Cert.Attn.kArr (m ((c : Thread nD τ).loc main_arg0)) (m ((c : Thread nD τ).loc main_arg1)) :=
  (W2_arr m ρ c 3).trans (final3 m ρ c)

/-- An entry of the value array from its coordinates. -/
theorem v_at (X0 : S4x2048x768.Idx → EReal) (X1 : S2304x768.Idx → EReal) (i : S4x2048x768.Idx) (b : Fin 4) (s : Fin 2048) (cc : Fin 768)
    (h0 : (i 0).val = b.val) (h1 : (i 1).val = s.val) (h2 : (i 2).val = cc.val) :
    Cert.Attn.vArr X0 X1 i = ∑ d : Fin 768, X0 (ix3 b s d) * X1 (ix2 (⟨1536 + cc.val, by omega⟩ : Fin 2304) d) := by
  obtain rfl : i = ix3 b s cc := funext fun a => Fin.ext (by
    match a with
    | ⟨0, _⟩ => exact h0
    | ⟨1, _⟩ => exact h1
    | ⟨2, _⟩ => exact h2)
  rfl

/-- What a grid point writes back to the value array is its block of the value array. -/
theorem flushed4_eq (c : Dev nD) (t : Fin cfg0.N) :
    (dat0 (V1 m ρ) c).flushed 4 t = ((cfg0.win 4).blk t).view.read (Elt Ideal)
      (Cert.Attn.vArr (m ((c : Thread nD τ).loc main_arg0)) (m ((c : Thread nD τ).loc main_arg1))) := by
  show (cfg0.win 4).cut (grid0.coords t) ((dat0 (V1 m ρ) c).after 4 t) = _
  rw [after0_4, out4_eq]
  have hN : t.val < 16 := lt_of_lt_of_eq t.isLt (show cfg0.N = 16 from N_0)
  obtain ⟨-, -, -, -, e0, e1, e2⟩ := idx_facts t
  funext j
  obtain ⟨a, r, cc, rfl⟩ : ∃ (a : Fin 1) (r : Fin 512) (cc : Fin 768), j = ix3 a r cc := ⟨j 0, j 1, j 2, eq_ix3 j⟩
  obtain rfl : a = 0 := Subsingleton.elim _ _
  rw [View.read_apply]
  show k0_pay4 (iblk0 (V1 m ρ) c 0 t) (iblk0 (V1 m ρ) c 1 t) (ix3 (0 : Fin 1) r cc) = _
  refine (pay4_at (iblk0 (V1 m ρ) c 0 t) (iblk0 (V1 m ρ) c 1 t) r cc).trans ?_
  refine Eq.trans ?_ (v_at _ _ _ (⟨t.val / 4, by omega⟩ : Fin 4) (⟨t.val % 4 * 512 + r.val, by omega⟩ : Fin 2048) cc ?_ ?_ ?_).symm
  · refine Finset.sum_congr rfl fun d _ => ?_
    rw [xblk_apply m ρ c t r d (⟨t.val / 4, by omega⟩ : Fin 4) (⟨t.val % 4 * 512 + r.val, by omega⟩ : Fin 2048) rfl rfl, wblk_apply m ρ c t d]
  · show win0_4.index t (0 : Fin 3) * 1 + 1 * (0 : Fin 1).val = t.val / 4; rw [e0]; simp
  · show win0_4.index t (1 : Fin 3) * 512 + 1 * r.val = t.val % 4 * 512 + r.val; rw [e1]; omega
  · show win0_4.index t (2 : Fin 3) * 768 + 1 * cc.val = cc.val; rw [e2]; omega

/-- An index lies in a point's block iff each coordinate lies in the block's range on its axis. -/
theorem mem_blk4 (t : Fin cfg0.N) (i : S4x2048x768.Idx) :
    i ∈ ((cfg0.win 4).blk t).view.set ↔ ∀ a : Fin 3, win0_4.index t a * S1x512x768.size a ≤ (i a).val ∧ (i a).val < win0_4.index t a * S1x512x768.size a + S1x512x768.size a := by
  show i ∈ ((View.whole main_v5_2).slice (win0_4.rect t)).set ↔ _
  rw [View.set_slice_whole, Rect.mem_set_unit]
  exact Iff.rfl

/-- Every token row lies in the block of the point (batch entry, row / 512). -/
theorem cover4 (i : S4x2048x768.Idx) : ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 768 := (i 2).isLt
  have hN : cfg0.N = 16 := N_0
  refine ⟨⟨(i 0).val * 4 + (i 1).val / 512, by rw [hN]; omega⟩, flush0_4 _, ?_⟩
  rw [mem_blk4]
  obtain ⟨-, -, -, -, e0, e1, e2⟩ := idx_facts ⟨(i 0).val * 4 + (i 1).val / 512, by rw [hN]; omega⟩
  intro a
  match a with
  | ⟨0, _⟩ => show win0_4.index _ (0 : Fin 3) * 1 ≤ (i 0).val ∧ (i 0).val < win0_4.index _ (0 : Fin 3) * 1 + 1; rw [e0]; show ((i 0).val * 4 + (i 1).val / 512) / 4 * 1 ≤ (i 0).val ∧ (i 0).val < ((i 0).val * 4 + (i 1).val / 512) / 4 * 1 + 1; omega
  | ⟨1, _⟩ => show win0_4.index _ (1 : Fin 3) * 512 ≤ (i 1).val ∧ (i 1).val < win0_4.index _ (1 : Fin 3) * 512 + 512; rw [e1]; show ((i 0).val * 4 + (i 1).val / 512) % 4 * 512 ≤ (i 1).val ∧ (i 1).val < ((i 0).val * 4 + (i 1).val / 512) % 4 * 512 + 512; omega
  | ⟨2, _⟩ => show win0_4.index _ (2 : Fin 3) * 768 ≤ (i 2).val ∧ (i 2).val < win0_4.index _ (2 : Fin 3) * 768 + 768; rw [e2]; omega

/-- The value array after the first stage. -/
theorem final4 (c : Dev nD) : (dat0 (V1 m ρ) c).arrAt 4 cfg0.N =
    Cert.Attn.vArr (m ((c : Thread nD τ).loc main_arg0)) (m ((c : Thread nD τ).loc main_arg1)) :=
  (dat0 (V1 m ρ) c).arrAt_eq_of_cover 4 _ (fun t _ => flushed4_eq m ρ c t) cover4

/-- What the second stage finds in its third input array: the values. -/
theorem found2 (c : Dev nD) : V2 m ρ c (Pipeline.arrRef spec1 2) =
    Cert.Attn.vArr (m ((c : Thread nD τ).loc main_arg0)) (m ((c : Thread nD τ).loc main_arg1)) :=
  (W2_arr m ρ c 4).trans (final4 m ρ c)

/-- The second stage's fourth and fifth input arrays were written before the first stage, which leaves them alone:
    the transposed output matrix, -/
theorem found3 (c : Dev nD) : V2 m ρ c (Pipeline.arrRef spec1 3) = Cert.Attn.woT (m ((c : Thread nD τ).loc main_arg2)) :=
  (W2_of_ne m ρ c main_v3 (by decide)).trans (host_v3_eq m ρ c)

/-- and the bias row. -/
theorem found4 (c : Dev nD) : V2 m ρ c (Pipeline.arrRef spec1 4) = Cert.Attn.bRow (m ((c : Thread nD τ).loc main_arg3)) :=
  (W2_of_ne m ρ c main_v4 (by decide)).trans (host_v4_eq m ρ c)

end Cert.Attn.Stage1
end
-- ==== Proof.Head.lean ====
/-
  One attention head on one tile of 256 query rows.

  From the tile's rows `v1` (256 x 768) and the batch entry's key and value rows `v3`, `v5` (2048 x 768 each), a
  head works on the 64 lanes that start at feature `off 1`: the scores are the products of query lanes with key
  lanes, scaled by 1/8; each row of scores is shifted by its maximum and exponentiated; the row is divided by its
  sum; the result multiplies the value lanes. The twelve heads of the kernel's body are this one computation at
  the offsets 0, 64, …, 704, whatever way the body's text is cut into named values.
-/
import proofs.«111470_j2207613190171_2_alg».proof.Proof.Gen.KernelIdeal.Skeleton
import proofs.«111470_j2207613190171_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.Attn.Head

open Idealize.ShloMosaic Idealize.ShloMosaic.ValueIdx Cert.KernelIdeal Cert.KernelIdeal.Gen

variable {F : FTy → Type} [FloatOps F]

/-- The scaled scores of the tile's rows against all 2048 key rows, on the head's lanes. -/
def scores (off : Fin 2 → Nat) (hq : S256x768.Slices off S256x64) (hk : S2048x768.Slices off S2048x64)
    (v1 : FVec F S256x768 .bf16) (v3 : FVec F S2048x768 .bf16) : FVec F S256x2048 .f32 :=
  mulf (matmul dot_S256x64_S2048x64_S256x2048_1_1_0_0_n_n none (extractStridedSlice S256x64 off v1 hq)
      (extractStridedSlice S2048x64 off v3 hk) (constant S256x2048 .f32 0x00000000#32))
    (broadcast S256x2048 (Scalar.ofBits .f32 0x3E000000#32))

/-- Each row shifted by its maximum, then exponentiated. -/
def shifted (sc : FVec F S256x2048 .f32) : FVec F S256x2048 .f32 :=
  exp (subf sc (broadcastTo S256x2048
    (shapeCast S256x1 (multiReduction .maximumf [1] S256 sc 0xFF800000#32 reduces_S256x2048_S256 (.inl rfl) rfl) shapeCasts_S256_S256x1)
    broadcasts_S256x1_S256x2048))

/-- The sum of each row, -/
def rowSum (e : FVec F S256x2048 .f32) : FVec F S256 .f32 :=
  multiReduction .add [1] S256 e 0x00000000#32 reduces_S256x2048_S256 (.inl rfl) rfl

/-- a row divided by a number per row, -/
def divRows (e : FVec F S256x2048 .f32) (l : FVec F S256 .f32) : FVec F S256x2048 .bf16 :=
  truncf .bf16 (divf e (broadcastTo S256x2048 (shapeCast S256x1 l shapeCasts_S256_S256x1) broadcasts_S256x1_S256x2048)) bitsLt_bf16_f32

/-- and the weights applied to the value lanes. -/
def applied (p : FVec F S256x2048 .bf16) (vv : FVec F S2048x64 .bf16) : FVec F S256x64 .f32 :=
  matmul dot_S256x2048_S2048x64_S256x64_1_0_0_1_n_n none p vv (constant S256x64 .f32 0x00000000#32)

/-- The head's 256 x 64 output. -/
def chain (off : Fin 2 → Nat) (hq : S256x768.Slices off S256x64) (hk : S2048x768.Slices off S2048x64)
    (v1 : FVec F S256x768 .bf16) (v3 v5 : FVec F S2048x768 .bf16) : FVec F S256x64 .bf16 :=
  shapeCast S256x64 (truncf .bf16 (applied (divRows (shifted (scores off hq hk v1 v3)) (rowSum (shifted (scores off hq hk v1 v3))))
    (extractStridedSlice S2048x64 off v5 hk)) bitsLt_bf16_f32) shapeCasts_S256x64_S256x64

/-! ## The body's twelve stored values are the head at the twelve offsets -/
theorem piece0 (x0 : Vec F S1x256x768 .bf16) (x1 x2 : Vec F S1x2048x768 .bf16) :
    k1_pay6 x0 x1 x2 = chain ![0, 0] slices_S256x768_o0_0_S256x64 slices_S2048x768_o0_0_S2048x64 (k1_pay3 x0) (k1_pay4 x1) (k1_pay5 x2) := rfl
theorem piece1 (x0 : Vec F S1x256x768 .bf16) (x1 x2 : Vec F S1x2048x768 .bf16) :
    k1_pay9 (k1_pay7 x2) (k1_pay8 x0 x1) = chain ![0, 64] slices_S256x768_o0_64_S256x64 slices_S2048x768_o0_64_S2048x64 (k1_pay3 x0) (k1_pay4 x1) (k1_pay5 x2) := rfl
theorem piece2 (x0 : Vec F S1x256x768 .bf16) (x1 x2 : Vec F S1x2048x768 .bf16) :
    k1_pay10 (k1_pay3 x0) (k1_pay4 x1) (k1_pay5 x2) = chain ![0, 128] slices_S256x768_o0_128_S256x64 slices_S2048x768_o0_128_S2048x64 (k1_pay3 x0) (k1_pay4 x1) (k1_pay5 x2) := rfl
theorem piece3 (x0 : Vec F S1x256x768 .bf16) (x1 x2 : Vec F S1x2048x768 .bf16) :
    k1_pay14 (k1_pay11 (k1_pay5 x2)) (k1_pay12 (k1_pay3 x0) (k1_pay4 x1)) (k1_pay13 (k1_pay3 x0) (k1_pay4 x1)) = chain ![0, 192] slices_S256x768_o0_192_S256x64 slices_S2048x768_o0_192_S2048x64 (k1_pay3 x0) (k1_pay4 x1) (k1_pay5 x2) := rfl
theorem piece4 (x0 : Vec F S1x256x768 .bf16) (x1 x2 : Vec F S1x2048x768 .bf16) :
    k1_pay15 (k1_pay3 x0) (k1_pay4 x1) (k1_pay5 x2) = chain ![0, 256] slices_S256x768_o0_256_S256x64 slices_S2048x768_o0_256_S2048x64 (k1_pay3 x0) (k1_pay4 x1) (k1_pay5 x2) := rfl
theorem piece5 (x0 : Vec F S1x256x768 .bf16) (x1 x2 : Vec F S1x2048x768 .bf16) :
    k1_pay19 (k1_pay16 (k1_pay5 x2)) (k1_pay17 (k1_pay3 x0) (k1_pay4 x1)) (k1_pay18 (k1_pay3 x0) (k1_pay4 x1)) = chain ![0, 320] slices_S256x768_o0_320_S256x64 slices_S2048x768_o0_320_S2048x64 (k1_pay3 x0) (k1_pay4 x1) (k1_pay5 x2) := rfl
theorem piece6 (x0 : Vec F S1x256x768 .bf16) (x1 x2 : Vec F S1x2048x768 .bf16) :
    k1_pay20 (k1_pay3 x0) (k1_pay4 x1) (k1_pay5 x2) = chain ![0, 384] slices_S256x768_o0_384_S256x64 slices_S2048x768_o0_384_S2048x64 (k1_pay3 x0) (k1_pay4 x1) (k1_pay5 x2) := rfl
theorem piece7 (x0 : Vec F S1x256x768 .bf16) (x1 x2 : Vec F S1x2048x768 .bf16) :
    k1_pay23 (k1_pay21 (k1_pay5 x2)) (k1_pay22 (k1_pay3 x0) (k1_pay4 x1)) = chain ![0, 448] slices_S256x768_o0_448_S256x64 slices_S2048x768_o0_448_S2048x64 (k1_pay3 x0) (k1_pay4 x1) (k1_pay5 x2) := rfl
theorem piece8 (x0 : Vec F S1x256x768 .bf16) (x1 x2 : Vec F S1x2048x768 .bf16) :
    k1_pay24 (k1_pay3 x0) (k1_pay4 x1) (k1_pay5 x2) = chain ![0, 512] slices_S256x768_o0_512_S256x64 slices_S2048x768_o0_512_S2048x64 (k1_pay3 x0) (k1_pay4 x1) (k1_pay5 x2) := rfl
theorem piece9 (x0 : Vec F S1x256x768 .bf16) (x1 x2 : Vec F S1x2048x768 .bf16) :
    k1_pay26 (k1_pay25 (k1_pay3 x0) (k1_pay4 x1) (k1_pay5 x2)) = chain ![0, 576] slices_S256x768_o0_576_S256x64 slices_S2048x768_o0_576_S2048x64 (k1_pay3 x0) (k1_pay4 x1) (k1_pay5 x2) := rfl
theorem piece10 (x0 : Vec F S1x256x768 .bf16) (x1 x2 : Vec F S1x2048x768 .bf16) :
    k1_pay27 (k1_pay3 x0) (k1_pay4 x1) (k1_pay5 x2) = chain ![0, 640] slices_S256x768_o0_640_S256x64 slices_S2048x768_o0_640_S2048x64 (k1_pay3 x0) (k1_pay4 x1) (k1_pay5 x2) := rfl
theorem piece11 (x0 : Vec F S1x256x768 .bf16) (x1 x2 : Vec F S1x2048x768 .bf16) :
    k1_pay1 (k1_pay28 (k1_pay3 x0) (k1_pay4 x1) (k1_pay5 x2)) = chain ![0, 704] slices_S256x768_o0_704_S256x64 slices_S2048x768_o0_704_S2048x64 (k1_pay3 x0) (k1_pay4 x1) (k1_pay5 x2) := rfl

/-! ## The head read at an index, over the extended reals -/

/-- A matrix product into a zero accumulator, read at an output index, with the operands' entries along the one
    contracted axis named: the sum of the products. -/
theorem matmul_zero_named {sl sr so : Shape} {φ₁ φ₂ : FTy} (D : DotDims sl sr so) (n : Nat) (hr : D.contr.rank = 1)
    (hs : D.contr.size ⟨0, by omega⟩ = n) (lhs : FVec Ideal sl φ₁) (rhs : FVec Ideal sr φ₂) (j : so.Idx)
    (L R : Fin n → EReal)
    (hl : ∀ k : Fin n, lhs (D.lhsIdx j ((contrEquiv1 D n hr hs).symm k)) = L k)
    (hR : ∀ k : Fin n, rhs (D.rhsIdx j ((contrEquiv1 D n hr hs).symm k)) = R k) :
    FloatOps.matmul D none lhs rhs (constant (F := Ideal) so .f32 0x00000000#32) j = ∑ k : Fin n, L k * R k := by
  rw [Ideal.matmul_constant_zero_apply, ← Equiv.sum_comp (contrEquiv1 D n hr hs).symm]
  exact Finset.sum_congr rfl fun k _ => by rw [hl k, hR k]

/-! The operand indices of the two products: queries against keys contract the lanes of both (row r of the left,
    row t of the right); weights against values contract the key axis. -/

theorem qk_lhs0 (j : S256x2048.Idx) (q : dot_S256x64_S2048x64_S256x2048_1_1_0_0_n_n.contr.Idx) : (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs1 (j : S256x2048.Idx) (q : dot_S256x64_S2048x64_S256x2048_1_1_0_0_n_n.contr.Idx) : (dot_S256x64_S2048x64_S256x2048_1_1_0_0_n_n.lhsIdx j q 1).val = (q ⟨0, by decide⟩).val :=
  dot_S256x64_S2048x64_S256x2048_1_1_0_0_n_n.lhsIdx_val_of_single rfl j q
theorem qk_rhs0 (j : S256x2048.Idx) (q : dot_S256x64_S2048x64_S256x2048_1_1_0_0_n_n.contr.Idx) : (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs1 (j : S256x2048.Idx) (q : dot_S256x64_S2048x64_S256x2048_1_1_0_0_n_n.contr.Idx) : (dot_S256x64_S2048x64_S256x2048_1_1_0_0_n_n.rhsIdx j q 1).val = (q ⟨0, by decide⟩).val :=
  dot_S256x64_S2048x64_S256x2048_1_1_0_0_n_n.rhsIdx_val_of_single rfl j q

theorem pv_lhs0 (j : S256x64.Idx) (q : dot_S256x2048_S2048x64_S256x64_1_0_0_1_n_n.contr.Idx) : (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_lhs1 (j : S256x64.Idx) (q : dot_S256x2048_S2048x64_S256x64_1_0_0_1_n_n.contr.Idx) : (dot_S256x2048_S2048x64_S256x64_1_0_0_1_n_n.lhsIdx j q 1).val = (q ⟨0, by decide⟩).val :=
  dot_S256x2048_S2048x64_S256x64_1_0_0_1_n_n.lhsIdx_val_of_single rfl j q
theorem pv_rhs0 (j : S256x64.Idx) (q : dot_S256x2048_S2048x64_S256x64_1_0_0_1_n_n.contr.Idx) : (dot_S256x2048_S2048x64_S256x64_1_0_0_1_n_n.rhsIdx j q 0).val = (q ⟨0, by decide⟩).val :=
  dot_S256x2048_S2048x64_S256x64_1_0_0_1_n_n.rhsIdx_val_of_single rfl j q
theorem pv_rhs1 (j : S256x64.Idx) (q : dot_S256x2048_S2048x64_S256x64_1_0_0_1_n_n.contr.Idx) : (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

section Value

variable (off : Fin 2 → Nat) (h : Fin 12) (h0 : off 0 = 0) (h1 : off 1 = 64 * h.val)
include h0 h1

/-- The head's 64 lanes of a 256-row tile are the features `64 h + d`. -/
theorem slice256 (hq : S256x768.Slices off S256x64) (v1 : FVec Ideal S256x768 .bf16) (r : Fin 256) (d : Fin 64) :
    extractStridedSlice S256x64 off v1 hq (ix2 r d) = v1 (ix2 r (Cert.Attn.col h d)) :=
  extractStridedSlice_apply off v1 hq (ix2 r d) (ix2 r (Cert.Attn.col h d)) (fun a => by
    match a with
    | ⟨0, _⟩ => show r.val = off 0 + r.val; omega
    | ⟨1, _⟩ => show 64 * h.val + d.val = off 1 + d.val; omega)

/-- The same of the 2048 key or value rows. -/
theorem slice2048 (hk : S2048x768.Slices off S2048x64) (v3 : FVec Ideal S2048x768 .bf16) (t : Fin 2048) (d : Fin 64) :
    extractStridedSlice S2048x64 off v3 hk (ix2 t d) = v3 (ix2 t (Cert.Attn.col h d)) :=
  extractStridedSlice_apply off v3 hk (ix2 t d) (ix2 t (Cert.Attn.col h d)) (fun a => by
    match a with
    | ⟨0, _⟩ => show t.val = off 0 + t.val; omega
    | ⟨1, _⟩ => show 64 * h.val + d.val = off 1 + d.val; omega)

/-- The score of key row `t` for query row `r`: the inner product over the head's lanes, times 1/8. -/
theorem scores_apply (hq : S256x768.Slices off S256x64) (hk : S2048x768.Slices off S2048x64)
    (v1 : FVec Ideal S256x768 .bf16) (v3 : FVec Ideal S2048x768 .bf16) (r : Fin 256) (t : Fin 2048) :
    scores (F := Ideal) off hq hk v1 v3 (ix2 r t)
      = (∑ d : Fin 64, v1 (ix2 r (Cert.Attn.col h d)) * v3 (ix2 t (Cert.Attn.col h d))) * ((1 / 8 : ℝ) : EReal) := by
  unfold scores
  rw [mulf_apply, broadcast_apply]
  refine congrArg₂ (· * ·) ?_ (show Ideal.ofBits .f32 0x3E000000#32 = _ from Cert.Attn.ofBits_eighth)
  refine matmul_zero_named dot_S256x64_S2048x64_S256x2048_1_1_0_0_n_n 64 rfl rfl _ _ (ix2 r t) _ _ (fun d => ?_) (fun d => ?_)
  · have e : dot_S256x64_S2048x64_S256x2048_1_1_0_0_n_n.lhsIdx (ix2 r t) ((contrEquiv1 dot_S256x64_S2048x64_S256x2048_1_1_0_0_n_n 64 rfl rfl).symm d) = ix2 r d :=
      funext fun a => Fin.ext (by
        match a with
        | ⟨0, _⟩ => exact qk_lhs0 _ _
        | ⟨1, _⟩ => exact (qk_lhs1 _ _).trans (contrEquiv1_symm_val dot_S256x64_S2048x64_S256x2048_1_1_0_0_n_n 64 rfl rfl d))
    rw [e]; exact slice256 off h h0 h1 hq v1 r d
  · have e : dot_S256x64_S2048x64_S256x2048_1_1_0_0_n_n.rhsIdx (ix2 r t) ((contrEquiv1 dot_S256x64_S2048x64_S256x2048_1_1_0_0_n_n 64 rfl rfl).symm d) = ix2 t d :=
      funext fun a => Fin.ext (by
        match a with
        | ⟨0, _⟩ => exact qk_rhs0 _ _
        | ⟨1, _⟩ => exact (qk_rhs1 _ _).trans (contrEquiv1_symm_val dot_S256x64_S2048x64_S256x2048_1_1_0_0_n_n 64 rfl rfl d))
    rw [e]; exact slice2048 off h h0 h1 hk v3 t d

end Value

/-- A number per row, spread along the row. -/
theorem spread_apply (l : FVec Ideal S256 .f32) (r : Fin 256) (t : Fin 2048) :
    broadcastTo S256x2048 (shapeCast S256x1 l shapeCasts_S256_S256x1) broadcasts_S256x1_S256x2048 (ix2 r t) = l (ix1 r) := by
  refine (broadcastTo_apply _ broadcasts_S256x1_S256x2048 (ix2 r t) (ix2 r 0) (fun a => ?_)).trans ?_
  · match a with
    | ⟨0, _⟩ => rfl
    | ⟨1, _⟩ => rfl
  · exact shapeCast_apply l shapeCasts_S256_S256x1 (ix2 r 0) (ix1 r) (by
      rw [Shape.rowMajor_val_one, Shape.rowMajor_val_two]; show r.val = r.val * 1 + 0; omega)

/-- A row's maximum, from the bottom element. -/
theorem rowMax_apply (sc : FVec Ideal S256x2048 .f32) (r : Fin 256) :
    multiReduction .maximumf [1] S256 sc 0xFF800000#32 reduces_S256x2048_S256 (.inl rfl) rfl (ix1 r)
      = (Finset.univ : Finset (Fin 2048)).fold max (⊥ : EReal) (fun t => sc (ix2 r t)) := by
  refine (Ideal.multiReduction_maximumf_single sc 0xFF800000#32 reduces_S256x2048_S256 (.inl rfl) rfl (ix1 r)).trans ?_
  show (Finset.univ : Finset (Fin 2048)).fold max (Ideal.ofBits .f32 0xFF800000#32) _ = _
  rw [Cert.Attn.ofBits_neg_inf]
  refine congrArg (fun f => Finset.fold max (⊥ : EReal) f (Finset.univ : Finset (Fin 2048))) ?_
  funext t
  exact congrArg sc (funext fun a => Fin.ext (by
    match a with
    | ⟨0, _⟩ => rfl
    | ⟨1, _⟩ => rfl))

/-- A row's sum. -/
theorem rowSum_apply (e : FVec Ideal S256x2048 .f32) (r : Fin 256) :
    rowSum (F := Ideal) e (ix1 r) = ∑ t : Fin 2048, e (ix2 r t) := by
  unfold rowSum
  refine (Ideal.multiReduction_add_single e 0x00000000#32 reduces_S256x2048_S256 (.inl rfl) rfl (ix1 r)).trans ?_
  refine Finset.sum_congr rfl fun t _ => ?_
  exact congrArg e (funext fun a => Fin.ext (by
    match a with
    | ⟨0, _⟩ => rfl
    | ⟨1, _⟩ => rfl))

/-- A shifted, exponentiated score. -/
theorem shifted_apply (sc : FVec Ideal S256x2048 .f32) (r : Fin 256) (t : Fin 2048) :
    shifted (F := Ideal) sc (ix2 r t)
      = Ideal.exp (sc (ix2 r t) - (Finset.univ : Finset (Fin 2048)).fold max (⊥ : EReal) (fun t' => sc (ix2 r t'))) := by
  unfold shifted
  show Ideal.exp (sc (ix2 r t) - _) = _
  rw [spread_apply, rowMax_apply]

/-- A weight divided by its row's sum. -/
theorem divRows_apply (e : FVec Ideal S256x2048 .f32) (l : FVec Ideal S256 .f32) (r : Fin 256) (t : Fin 2048) :
    divRows (F := Ideal) e l (ix2 r t) = Ideal.div (e (ix2 r t)) (l (ix1 r)) := by
  unfold divRows
  show Ideal.div (e (ix2 r t)) _ = _
  rw [spread_apply]

/-- The weights applied to a block of value lanes. -/
theorem applied_apply (p : FVec Ideal S256x2048 .bf16) (vv : FVec Ideal S2048x64 .bf16) (r : Fin 256) (j : Fin 64) :
    applied (F := Ideal) p vv (ix2 r j) = ∑ t : Fin 2048, p (ix2 r t) * vv (ix2 t j) := by
  unfold applied
  refine matmul_zero_named dot_S256x2048_S2048x64_S256x64_1_0_0_1_n_n 2048 rfl rfl _ _ (ix2 r j) _ _ (fun t => ?_) (fun t => ?_)
  · exact congrArg p (funext fun a => Fin.ext (by
      match a with
      | ⟨0, _⟩ => exact pv_lhs0 _ _
      | ⟨1, _⟩ => exact (pv_lhs1 _ _).trans (contrEquiv1_symm_val dot_S256x2048_S2048x64_S256x64_1_0_0_1_n_n 2048 rfl rfl t)))
  · exact congrArg vv (funext fun a => Fin.ext (by
      match a with
      | ⟨0, _⟩ => exact (pv_rhs0 _ _).trans (contrEquiv1_symm_val dot_S256x2048_S2048x64_S256x64_1_0_0_1_n_n 2048 rfl rfl t)
      | ⟨1, _⟩ => exact pv_rhs1 _ _))

/-- The head at offset `64 h`, on a tile whose row `r` is query token `s` of batch entry `b` and whose key and
    value rows are that entry's, is lane by lane the specification's weighted average. -/
theorem chain_apply (off : Fin 2 → Nat) (h : Fin 12) (h0 : off 0 = 0) (h1 : off 1 = 64 * h.val)
    (hq : S256x768.Slices off S256x64) (hk : S2048x768.Slices off S2048x64)
    (v1 : FVec Ideal S256x768 .bf16) (v3 v5 : FVec Ideal S2048x768 .bf16)
    (q k v : Cert.Attn.Rows) (b : Fin 4) (s : Fin 2048) (r : Fin 256) (j : Fin 64)
    (hQ : ∀ d : Fin 768, v1 (ix2 r d) = q b s d)
    (hK : ∀ (t : Fin 2048) (d : Fin 768), v3 (ix2 t d) = k b t d)
    (hV : ∀ (t : Fin 2048) (d : Fin 768), v5 (ix2 t d) = v b t d) :
    chain (F := Ideal) off hq hk v1 v3 v5 (ix2 r j) = Cert.Attn.mix q k v b s h j := by
  have hsc : ∀ t, scores (F := Ideal) off hq hk v1 v3 (ix2 r t) = Cert.Attn.score q k b h s t := fun t => by
    rw [scores_apply off h h0 h1]; unfold Cert.Attn.score; simp only [hQ, hK]
  have hw : ∀ t, shifted (F := Ideal) (scores (F := Ideal) off hq hk v1 v3) (ix2 r t) = Cert.Attn.weight q k b h s t := fun t => by
    rw [shifted_apply]; unfold Cert.Attn.weight Cert.Attn.rowMax; simp only [hsc]
  unfold chain
  rw [shapeCast_self]
  show applied (F := Ideal) _ _ (ix2 r j) = _
  rw [applied_apply]
  unfold Cert.Attn.mix
  refine Finset.sum_congr rfl fun t _ => ?_
  rw [divRows_apply, rowSum_apply, slice2048 off h h0 h1, hV]
  unfold Cert.Attn.prob Cert.Attn.denom
  simp only [hw]

end Cert.Attn.Head

end
-- ==== Proof.Tile.lean ====
/-
  What the second stage's body leaves in its output block, as a function of the five blocks it is given.

  The body writes the twelve heads' 256 x 64 outputs side by side into a 256 x 768 scratch buffer, reads the
  buffer back whole, multiplies it by the 768 x 768 matrix block and adds the bias row. The buffer read back is
  one function of its index: at column `64 h + j` it is head `h`'s output at lane `j`.
-/
import proofs.«111470_j2207613190171_2_alg».proof.Proof.Gen.KernelIdeal.Frame
import proofs.«111470_j2207613190171_2_alg».proof.Proof.Head
import Idealize.ShloMosaic.Lib.ValueLayout

set_option maxRecDepth 16384

noncomputable section

namespace Cert.Attn.Tile

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-- The twelve stores into the scratch buffer, last first: head `h`'s output at the columns from `64 h`. -/
def pieces (x0 : Vec F S1x256x768 .bf16) (x1 x2 : Vec F S1x2048x768 .bf16) : List (View.Piece (Elt F) S256x768 .bf16) :=
  [
    ⟨Rect.unit ![0, 704] S256x64.size inb_S256x768_S256x64_0_704, k1_pay1 (k1_pay28 (k1_pay3 x0) (k1_pay4 x1) (k1_pay5 x2))⟩,
    ⟨Rect.unit ![0, 640] S256x64.size inb_S256x768_S256x64_0_640, k1_pay27 (k1_pay3 x0) (k1_pay4 x1) (k1_pay5 x2)⟩,
    ⟨Rect.unit ![0, 576] S256x64.size inb_S256x768_S256x64_0_576, k1_pay26 (k1_pay25 (k1_pay3 x0) (k1_pay4 x1) (k1_pay5 x2))⟩,
    ⟨Rect.unit ![0, 512] S256x64.size inb_S256x768_S256x64_0_512, k1_pay24 (k1_pay3 x0) (k1_pay4 x1) (k1_pay5 x2)⟩,
    ⟨Rect.unit ![0, 448] S256x64.size inb_S256x768_S256x64_0_448, k1_pay23 (k1_pay21 (k1_pay5 x2)) (k1_pay22 (k1_pay3 x0) (k1_pay4 x1))⟩,
    ⟨Rect.unit ![0, 384] S256x64.size inb_S256x768_S256x64_0_384, k1_pay20 (k1_pay3 x0) (k1_pay4 x1) (k1_pay5 x2)⟩,
    ⟨Rect.unit ![0, 320] S256x64.size inb_S256x768_S256x64_0_320, k1_pay19 (k1_pay16 (k1_pay5 x2)) (k1_pay17 (k1_pay3 x0) (k1_pay4 x1)) (k1_pay18 (k1_pay3 x0) (k1_pay4 x1))⟩,
    ⟨Rect.unit ![0, 256] S256x64.size inb_S256x768_S256x64_0_256, k1_pay15 (k1_pay3 x0) (k1_pay4 x1) (k1_pay5 x2)⟩,
    ⟨Rect.unit ![0, 192] S256x64.size inb_S256x768_S256x64_0_192, k1_pay14 (k1_pay11 (k1_pay5 x2)) (k1_pay12 (k1_pay3 x0) (k1_pay4 x1)) (k1_pay13 (k1_pay3 x0) (k1_pay4 x1))⟩,
    ⟨Rect.unit ![0, 128] S256x64.size inb_S256x768_S256x64_0_128, k1_pay10 (k1_pay3 x0) (k1_pay4 x1) (k1_pay5 x2)⟩,
    ⟨Rect.unit ![0, 64] S256x64.size inb_S256x768_S256x64_0_64, k1_pay9 (k1_pay7 x2) (k1_pay8 x0 x1)⟩,
    ⟨Rect.unit ![0, 0] S256x64.size inb_S256x768_S256x64_0_0, k1_pay6 x0 x1 x2⟩ ]

/-- The stores tile the buffer, so every index is under one of them. -/
theorem pieces_cover (x0 : Vec F S1x256x768 .bf16) (x1 x2 : Vec F S1x2048x768 .bf16) (y : S256x768.Idx) :
    ∃ pc ∈ pieces x0 x1 x2, y ∈ pc.1.set :=
  View.cover_of_tiledL (pieces x0 x1 x2) ![256, 64] (by sl_kernel_rfl) y

set_option maxHeartbeats 1000000 in
/-- The output block after the body: the projection-and-bias of the scratch buffer's contents. -/
theorem out_eq (c : Dev nD) (i : grid1.Coords) (arg2 : Memref sig .tc .vmem S1x256x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S1x256x768 .f32) (harg7 : arg7.IsWhole) (arg8 : Memref sig .tc .vmem S256x768 .bf16) (harg8 : arg8.IsWhole)
    (x0 : Vec F S1x256x768 .bf16) (x1 : Vec F S1x2048x768 .bf16) (x2 : Vec F S1x2048x768 .bf16) (x3 : Vec F S768x768 .bf16) (x4 : Vec F S1x768 .f32) :
    out1_A_5 (F := F) c i arg2 harg2 arg3 harg3 arg4 harg4 arg5 harg5 arg6 harg6 arg7 harg7 arg8 harg8 x0 x1 x2 x3 x4 = k1_pay2 (View.canon (pieces x0 x1 x2)) x3 x4 := by
  have hz3 : (![0, 0, 0] : Fin 3 → Nat) = fun _ => 0 := by funext a; fin_cases a <;> rfl
  have hz2 : (![0, 0] : Fin 2 → Nat) = fun _ => 0 := by funext a; fin_cases a <;> rfl
  unfold out1_A_5
  rw [View.read_writes_eq_canon _ _ _ (cover1_A_5 c i arg2 harg2 arg3 harg3 arg4 harg4 arg5 harg5 arg6 harg6 arg7 harg7 arg8 harg8 x0 x1 x2 x3 x4)]
  unfold kernelRun1_A
  dsimp only
  sl_unfold_words
  rw [View.canon_unit_zero hz3]
  simp only [View.readAt_eq_ld, harg2.read_unread, harg3.read_unread, harg4.read_unread, harg5.read_unread, harg6.read_unread,
    View.ld_unit_zero (S := S1x256x768) hz3, View.ld_unit_zero (S := S1x2048x768) hz3, View.ld_unit_zero (S := S768x768) hz2,
    View.ld_unit_zero (S := S1x768) hz2]
  refine congrArg (fun a => k1_pay2 a x3 x4) ?_
  refine (View.readCov_eq_canon_ld arg8.view (pieces x0 x1 x2) _ (pieces_cover x0 x1 x2)).trans ?_
  exact View.ld_unit_zero (S := S256x768) hz2 _ _

/-! ## The projection and the bias, read at an index -/

theorem op_lhs0 (j : S256x768.Idx) (q : dot_S256x768_S768x768_S256x768_1_0_0_1_n_n.contr.Idx) : (dot_S256x768_S768x768_S256x768_1_0_0_1_n_n.lhsIdx j q 0).val = (j 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
theorem op_lhs1 (j : S256x768.Idx) (q : dot_S256x768_S768x768_S256x768_1_0_0_1_n_n.contr.Idx) : (dot_S256x768_S768x768_S256x768_1_0_0_1_n_n.lhsIdx j q 1).val = (q ⟨0, by decide⟩).val :=
  dot_S256x768_S768x768_S256x768_1_0_0_1_n_n.lhsIdx_val_of_single rfl j q
theorem op_rhs0 (j : S256x768.Idx) (q : dot_S256x768_S768x768_S256x768_1_0_0_1_n_n.contr.Idx) : (dot_S256x768_S768x768_S256x768_1_0_0_1_n_n.rhsIdx j q 0).val = (q ⟨0, by decide⟩).val :=
  dot_S256x768_S768x768_S256x768_1_0_0_1_n_n.rhsIdx_val_of_single rfl j q
theorem op_rhs1 (j : S256x768.Idx) (q : dot_S256x768_S768x768_S256x768_1_0_0_1_n_n.contr.Idx) : (dot_S256x768_S768x768_S256x768_1_0_0_1_n_n.rhsIdx j q 1).val = (j 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl

/-- Entry `(r, e)` of the output block: row `r` of the buffer against column `e` of the matrix block, plus the bias. -/
theorem pay2_apply (acc : FVec Ideal S256x768 .bf16) (w : FVec Ideal S768x768 .bf16) (bias : FVec Ideal S1x768 .f32)
    (r : Fin 256) (e : Fin 768) :
    k1_pay2 (F := Ideal) acc w bias (ix3 (0 : Fin 1) r e) = (∑ d : Fin 768, acc (ix2 r d) * w (ix2 d e)) + bias (ix2 (0 : Fin 1) e) := by
  unfold k1_pay2
  refine (shapeCast_ab_1ab_apply _ shapeCasts_S256x768_S1x256x768 (0 : Fin 1) r e).trans ?_
  rw [addf_apply, shapeCast_self, shapeCast_self]
  refine congrArg₂ (· + ·) ?_ (broadcastTo_1b_ab_apply bias broadcasts_S1x768_S256x768 r e)
  refine Head.matmul_zero_named dot_S256x768_S768x768_S256x768_1_0_0_1_n_n 768 rfl rfl _ _ (ix2 r e) _ _ (fun d => ?_) (fun d => ?_)
  · exact congrArg acc (funext fun a => Fin.ext (by
      match a with
      | ⟨0, _⟩ => exact op_lhs0 _ _
      | ⟨1, _⟩ => exact (op_lhs1 _ _).trans (contrEquiv1_symm_val dot_S256x768_S768x768_S256x768_1_0_0_1_n_n 768 rfl rfl d)))
  · exact congrArg w (funext fun a => Fin.ext (by
      match a with
      | ⟨0, _⟩ => exact (op_rhs0 _ _).trans (contrEquiv1_symm_val dot_S256x768_S768x768_S256x768_1_0_0_1_n_n 768 rfl rfl d)
      | ⟨1, _⟩ => exact op_rhs1 _ _))

/-! ## The scratch buffer read back is one function of its index -/

/-- Row `r` of the `st`-th tile of 256 rows is token `256 st + r`. -/
def rowOf (st : Fin 8) (r : Fin 256) : Fin 2048 := ⟨256 * st.val + r.val, by omega⟩

/-- What the buffer holds at row `r`, column `d`: lane `d mod 64` of head `d / 64`'s output for the row's token. -/
def heldAt (q k v : Cert.Attn.Rows) (b : Fin 4) (st : Fin 8) (r d : ℕ) (hr : r < 256) (hd : d < 768) : EReal :=
  Cert.Attn.mix q k v b (rowOf st ⟨r, hr⟩) (Cert.Attn.hd ⟨d, hd⟩) (Cert.Attn.lane ⟨d, hd⟩)

def held (q k v : Cert.Attn.Rows) (b : Fin 4) (st : Fin 8) : S256x768.Idx → EReal :=
  fun y => heldAt q k v b st (y 0).val (y 1).val (y 0).isLt (y 1).isLt

theorem heldAt_eq (q k v : Cert.Attn.Rows) (b : Fin 4) (st : Fin 8) (r' d' : ℕ) (hr : r' < 256) (hd : d' < 768)
    (r : Fin 256) (h : Fin 12) (j : Fin 64) (er : r' = r.val) (ed : d' = 64 * h.val + j.val) :
    heldAt q k v b st r' d' hr hd = Cert.Attn.mix q k v b (rowOf st r) h j := by
  subst er ed
  unfold heldAt
  have e1 : Cert.Attn.hd ⟨64 * h.val + j.val, hd⟩ = h := Fin.ext (by simp only [Cert.Attn.hd]; omega)
  have e2 : Cert.Attn.lane ⟨64 * h.val + j.val, hd⟩ = j := Fin.ext (by simp only [Cert.Attn.lane]; omega)
  rw [e1, e2]

section Blocks

variable (x0 : Vec Ideal S1x256x768 .bf16) (x1 x2 : Vec Ideal S1x2048x768 .bf16)
  (q k v : Cert.Attn.Rows) (b : Fin 4) (st : Fin 8)
  (hQ : ∀ (r : Fin 256) (d : Fin 768), x0 (ix3 (0 : Fin 1) r d) = q b (rowOf st r) d)
  (hK : ∀ (t : Fin 2048) (d : Fin 768), x1 (ix3 (0 : Fin 1) t d) = k b t d)
  (hV : ∀ (t : Fin 2048) (d : Fin 768), x2 (ix3 (0 : Fin 1) t d) = v b t d)
include hQ hK hV

/-- One store's value is the buffer's function on the store's rectangle. -/
theorem chain_piece (h : Fin 12) (off : Fin 2 → Nat) (h0 : off 0 = 0) (h1 : off 1 = 64 * h.val)
    (hq : S256x768.Slices off S256x64) (hk : S2048x768.Slices off S2048x64)
    (inb : ∀ a, off a + S256x64.size a ≤ S256x768.size a)
    (x : (Rect.unit (s := S256x768) off S256x64.size inb).shape.Idx) :
    Head.chain (F := Ideal) off hq hk (k1_pay3 x0) (k1_pay4 x1) (k1_pay5 x2) x
      = held q k v b st ((Rect.unit (s := S256x768) off S256x64.size inb).emb x) := by
  obtain ⟨r, j, rfl⟩ : ∃ (r : Fin 256) (j : Fin 64), x = ix2 r j := ⟨x 0, x 1, eq_ix2 x⟩
  refine (Head.chain_apply off h h0 h1 hq hk (k1_pay3 x0) (k1_pay4 x1) (k1_pay5 x2) q k v b (rowOf st r) r j
    (fun d => ?_) (fun t d => ?_) (fun t d => ?_)).trans ?_
  · exact (shapeCast_1ab_ab_apply x0 shapeCasts_S1x256x768_S256x768 r d).trans (hQ r d)
  · exact (shapeCast_1ab_ab_apply x1 shapeCasts_S1x2048x768_S2048x768 t d).trans (hK t d)
  · exact (shapeCast_1ab_ab_apply x2 shapeCasts_S1x2048x768_S2048x768 t d).trans (hV t d)
  unfold held
  exact (heldAt_eq q k v b st _ _ _ _ r h j (by show off 0 + 1 * r.val = r.val; omega)
    (by show off 1 + 1 * j.val = 64 * h.val + j.val; omega)).symm

/-- So the buffer read back whole is that function. -/
theorem canon_pieces_apply (y : S256x768.Idx) :
    View.canon (pieces (F := Ideal) x0 x1 x2) y = held q k v b st y := by
  refine View.canon_apply_of_pieces (held q k v b st) (pieces x0 x1 x2) (fun p hp => ?_) y (pieces_cover x0 x1 x2 y)
  simp only [pieces, List.mem_cons, List.not_mem_nil, or_false] at hp
  rcases hp with rfl | rfl | rfl | rfl | rfl | rfl | rfl | rfl | rfl | rfl | rfl | rfl
  · intro x
    refine (congrFun (Head.piece11 x0 x1 x2) x).trans ?_
    exact chain_piece x0 x1 x2 q k v b st hQ hK hV (11 : Fin 12) ![0, 704] rfl rfl _ _ inb_S256x768_S256x64_0_704 x
  · intro x
    refine (congrFun (Head.piece10 x0 x1 x2) x).trans ?_
    exact chain_piece x0 x1 x2 q k v b st hQ hK hV (10 : Fin 12) ![0, 640] rfl rfl _ _ inb_S256x768_S256x64_0_640 x
  · intro x
    refine (congrFun (Head.piece9 x0 x1 x2) x).trans ?_
    exact chain_piece x0 x1 x2 q k v b st hQ hK hV (9 : Fin 12) ![0, 576] rfl rfl _ _ inb_S256x768_S256x64_0_576 x
  · intro x
    refine (congrFun (Head.piece8 x0 x1 x2) x).trans ?_
    exact chain_piece x0 x1 x2 q k v b st hQ hK hV (8 : Fin 12) ![0, 512] rfl rfl _ _ inb_S256x768_S256x64_0_512 x
  · intro x
    refine (congrFun (Head.piece7 x0 x1 x2) x).trans ?_
    exact chain_piece x0 x1 x2 q k v b st hQ hK hV (7 : Fin 12) ![0, 448] rfl rfl _ _ inb_S256x768_S256x64_0_448 x
  · intro x
    refine (congrFun (Head.piece6 x0 x1 x2) x).trans ?_
    exact chain_piece x0 x1 x2 q k v b st hQ hK hV (6 : Fin 12) ![0, 384] rfl rfl _ _ inb_S256x768_S256x64_0_384 x
  · intro x
    refine (congrFun (Head.piece5 x0 x1 x2) x).trans ?_
    exact chain_piece x0 x1 x2 q k v b st hQ hK hV (5 : Fin 12) ![0, 320] rfl rfl _ _ inb_S256x768_S256x64_0_320 x
  · intro x
    refine (congrFun (Head.piece4 x0 x1 x2) x).trans ?_
    exact chain_piece x0 x1 x2 q k v b st hQ hK hV (4 : Fin 12) ![0, 256] rfl rfl _ _ inb_S256x768_S256x64_0_256 x
  · intro x
    refine (congrFun (Head.piece3 x0 x1 x2) x).trans ?_
    exact chain_piece x0 x1 x2 q k v b st hQ hK hV (3 : Fin 12) ![0, 192] rfl rfl _ _ inb_S256x768_S256x64_0_192 x
  · intro x
    refine (congrFun (Head.piece2 x0 x1 x2) x).trans ?_
    exact chain_piece x0 x1 x2 q k v b st hQ hK hV (2 : Fin 12) ![0, 128] rfl rfl _ _ inb_S256x768_S256x64_0_128 x
  · intro x
    refine (congrFun (Head.piece1 x0 x1 x2) x).trans ?_
    exact chain_piece x0 x1 x2 q k v b st hQ hK hV (1 : Fin 12) ![0, 64] rfl rfl _ _ inb_S256x768_S256x64_0_64 x
  · intro x
    refine (congrFun (Head.piece0 x0 x1 x2) x).trans ?_
    exact chain_piece x0 x1 x2 q k v b st hQ hK hV (0 : Fin 12) ![0, 0] rfl rfl _ _ inb_S256x768_S256x64_0_0 x

end Blocks

/-- The output block at `(r, e)`: the specification's result for the row's token, given that the five blocks are
    the corresponding parts of the query, key and value rows, the transposed output matrix and the bias. -/
theorem tile_apply (c : Dev nD) (i : grid1.Coords) (arg2 : Memref sig .tc .vmem S1x256x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S1x256x768 .f32) (harg7 : arg7.IsWhole) (arg8 : Memref sig .tc .vmem S256x768 .bf16) (harg8 : arg8.IsWhole)
    (x0 : Vec Ideal S1x256x768 .bf16) (x1 : Vec Ideal S1x2048x768 .bf16) (x2 : Vec Ideal S1x2048x768 .bf16) (x3 : Vec Ideal S768x768 .bf16) (x4 : Vec Ideal S1x768 .f32)
    (q k v : Cert.Attn.Rows) (wo : Fin 768 → Fin 768 → EReal) (bo : Fin 768 → EReal) (b : Fin 4) (st : Fin 8)
    (hQ : ∀ (r : Fin 256) (d : Fin 768), x0 (ix3 (0 : Fin 1) r d) = q b (rowOf st r) d)
    (hK : ∀ (t : Fin 2048) (d : Fin 768), x1 (ix3 (0 : Fin 1) t d) = k b t d)
    (hV : ∀ (t : Fin 2048) (d : Fin 768), x2 (ix3 (0 : Fin 1) t d) = v b t d)
    (hW : ∀ (d e : Fin 768), x3 (ix2 d e) = wo e d)
    (hB : ∀ e : Fin 768, x4 (ix2 (0 : Fin 1) e) = bo e)
    (r : Fin 256) (e : Fin 768) :
    out1_A_5 (F := Ideal) c i arg2 harg2 arg3 harg3 arg4 harg4 arg5 harg5 arg6 harg6 arg7 harg7 arg8 harg8 x0 x1 x2 x3 x4 (ix3 (0 : Fin 1) r e) = Cert.Attn.out q k v wo bo b (rowOf st r) e := by
  rw [out_eq, pay2_apply]
  unfold Cert.Attn.out
  refine congrArg₂ (· + ·) (Finset.sum_congr rfl fun d _ => ?_) (hB e)
  rw [canon_pieces_apply x0 x1 x2 q k v b st hQ hK hV, hW]
  rfl

end Cert.Attn.Tile

end
-- ==== Proof.Stage2.lean ====
/-
  The second stage, from blocks to the array.

  The second stage visits 32 points (batch entry b, tile p of 256 query tokens). At a point it is given the tile's
  256 query rows, the entry's 2048 key rows and 2048 value rows, the whole transposed output matrix and the bias row,
  and writes the tile's 256 result rows. By the tile lemma these are the specification's result rows for the tokens
  256 p … 256 p + 255 of entry b; the 32 blocks tile the result array, so after the stage the array is the
  specification's second stage applied to the five arrays the stage found.
-/
import proofs.«111470_j2207613190171_2_alg».proof.Proof.Gen.KernelIdeal.Frame
import proofs.«111470_j2207613190171_2_alg».proof.Proof.Tile
import Idealize.ShloMosaic.Lib.Pipeline.Value
import Idealize.ShloMosaic.Lib.Tactic

set_option maxRecDepth 16384

noncomputable section

namespace Cert.Attn.Stage2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices at point `t`: batch entry `t / 8`, tile `t mod 8`; keys and values the entry's whole rows;
    the matrix and the bias whole. -/
theorem idx_facts : ∀ t : Fin cfg1.N,
    (win1_0.index t (0 : Fin 3) = t.val / 8 ∧ win1_0.index t (1 : Fin 3) = t.val % 8 ∧ win1_0.index t (2 : Fin 3) = 0)
    ∧ (win1_1.index t (0 : Fin 3) = t.val / 8 ∧ win1_1.index t (1 : Fin 3) = 0 ∧ win1_1.index t (2 : Fin 3) = 0)
    ∧ (win1_2.index t (0 : Fin 3) = t.val / 8 ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 3) = t.val / 8 ∧ win1_5.index t (1 : Fin 3) = t.val % 8 ∧ win1_5.index t (2 : Fin 3) = 0) :=
  (by decide +kernel : ∀ t : Fin grid1.N, _)

/-- The result of the second stage as a function of the five arrays it finds. -/
abbrev G (c : Dev nD) : S4x2048x768.Idx → EReal :=
  Cert.Attn.stage2Arr (V c main_v5_0) (V c main_v5_1) (V c main_v5_2) (V c main_v3) (V c main_v4)

/-- The tile of query rows at a point. -/
theorem qblk_apply (c : Dev nD) (t : Fin cfg1.N) (r : Fin 256) (d : Fin 768) (b : Fin 4) (p : Fin 8)
    (hb : b.val = t.val / 8) (hp : p.val = t.val % 8) :
    iblk1 V c 0 t (ix3 (0 : Fin 1) r d) = Cert.Attn.rows (V c main_v5_0) b (Tile.rowOf p r) d := by
  obtain ⟨⟨e0, e1, e2⟩, -⟩ := idx_facts t
  unfold iblk1
  rw [View.read_apply]
  show V c main_v5_0 _ = V c main_v5_0 _
  refine congrArg (V c main_v5_0) ?_
  funext a
  apply Fin.ext
  match a with
  | ⟨0, _⟩ => show win1_0.index t (0 : Fin 3) * 1 + 1 * (0 : Fin 1).val = b.val; rw [e0, hb]; simp
  | ⟨1, _⟩ => show win1_0.index t (1 : Fin 3) * 256 + 1 * r.val = 256 * p.val + r.val; rw [e1, hp]; omega
  | ⟨2, _⟩ => show win1_0.index t (2 : Fin 3) * 768 + 1 * d.val = d.val; rw [e2]; omega

/-- The key rows at a point: the batch entry's. -/
theorem kblk_apply (c : Dev nD) (t : Fin cfg1.N) (s : Fin 2048) (d : Fin 768) (b : Fin 4) (hb : b.val = t.val / 8) :
    iblk1 V c 1 t (ix3 (0 : Fin 1) s d) = Cert.Attn.rows (V c main_v5_1) b s d := by
  obtain ⟨-, ⟨e0, e1, e2⟩, -⟩ := idx_facts t
  unfold iblk1
  rw [View.read_apply]
  show V c main_v5_1 _ = V c main_v5_1 _
  refine congrArg (V c main_v5_1) ?_
  funext a
  apply Fin.ext
  match a with
  | ⟨0, _⟩ => show win1_1.index t (0 : Fin 3) * 1 + 1 * (0 : Fin 1).val = b.val; rw [e0, hb]; simp
  | ⟨1, _⟩ => show win1_1.index t (1 : Fin 3) * 2048 + 1 * s.val = s.val; rw [e1]; omega
  | ⟨2, _⟩ => show win1_1.index t (2 : Fin 3) * 768 + 1 * d.val = d.val; rw [e2]; omega

/-- The value rows at a point: the batch entry's. -/
theorem vblk_apply (c : Dev nD) (t : Fin cfg1.N) (s : Fin 2048) (d : Fin 768) (b : Fin 4) (hb : b.val = t.val / 8) :
    iblk1 V c 2 t (ix3 (0 : Fin 1) s d) = Cert.Attn.rows (V c main_v5_2) b s d := by
  obtain ⟨-, -, ⟨e0, e1, e2⟩, -⟩ := idx_facts t
  unfold iblk1
  rw [View.read_apply]
  show V c main_v5_2 _ = V c main_v5_2 _
  refine congrArg (V c main_v5_2) ?_
  funext a
  apply Fin.ext
  match a with
  | ⟨0, _⟩ => show win1_2.index t (0 : Fin 3) * 1 + 1 * (0 : Fin 1).val = b.val; rw [e0, hb]; simp
  | ⟨1, _⟩ => show win1_2.index t (1 : Fin 3) * 2048 + 1 * s.val = s.val; rw [e1]; omega
  | ⟨2, _⟩ => show win1_2.index t (2 : Fin 3) * 768 + 1 * d.val = d.val; rw [e2]; omega

/-- The matrix block at every point: the whole array. -/
theorem wblk_apply (c : Dev nD) (t : Fin cfg1.N) (d e : Fin 768) :
    iblk1 V c 3 t (ix2 d e) = V c main_v3 (ix2 d e) := by
  obtain ⟨-, -, -, ⟨e0, e1⟩, -⟩ := idx_facts t
  unfold iblk1
  rw [View.read_apply]
  show V c main_v3 _ = V c main_v3 _
  refine congrArg (V c main_v3) ?_
  funext a
  apply Fin.ext
  match a with
  | ⟨0, _⟩ => show win1_3.index t (0 : Fin 2) * 768 + 1 * d.val = d.val; rw [e0]; omega
  | ⟨1, _⟩ => show win1_3.index t (1 : Fin 2) * 768 + 1 * e.val = e.val; rw [e1]; omega

/-- The bias block at every point: the whole row. -/
theorem bblk_apply (c : Dev nD) (t : Fin cfg1.N) (e : Fin 768) :
    iblk1 V c 4 t (ix2 (0 : Fin 1) e) = V c main_v4 (ix2 (0 : Fin 1) e) := by
  obtain ⟨-, -, -, -, ⟨e0, e1⟩, -⟩ := idx_facts t
  unfold iblk1
  rw [View.read_apply]
  show V c main_v4 _ = V c main_v4 _
  refine congrArg (V c main_v4) ?_
  funext a
  apply Fin.ext
  match a with
  | ⟨0, _⟩ => show win1_4.index t (0 : Fin 2) * 1 + 1 * (0 : Fin 1).val = (0 : Fin 1).val; rw [e0]; simp
  | ⟨1, _⟩ => show win1_4.index t (1 : Fin 2) * 768 + 1 * e.val = e.val; rw [e1]; omega

/-- What a point writes back is its block of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  have hN : t.val < 32 := lt_of_lt_of_eq t.isLt (show cfg1.N = 32 from N_1)
  obtain ⟨-, -, -, -, -, ⟨e0, e1, e2⟩⟩ := idx_facts t
  funext j
  obtain ⟨a, r, e, rfl⟩ : ∃ (a : Fin 1) (r : Fin 256) (e : Fin 768), j = ix3 a r e := ⟨j 0, j 1, j 2, eq_ix3 j⟩
  obtain rfl : a = 0 := Subsingleton.elim _ _
  rw [View.read_apply]
  show outsAt1 V c t (ix3 (0 : Fin 1) r e) = _
  unfold outsAt1
  refine (Tile.tile_apply c (grid1.coords t) (ms1_0 t) (hs1_0 t) (ms1_1 t) (hs1_1 t) (ms1_2 t) (hs1_2 t) (ms1_3 t) (hs1_3 t)
    (ms1_4 t) (hs1_4 t) (ms1_5 t) (hs1_5 t) scM1_0 (Memref.isWhole_whole _)
    (iblk1 V c 0 t) (iblk1 V c 1 t) (iblk1 V c 2 t) (iblk1 V c 3 t) (iblk1 V c 4 t)
    (Cert.Attn.rows (V c main_v5_0)) (Cert.Attn.rows (V c main_v5_1)) (Cert.Attn.rows (V c main_v5_2))
    (fun e d => V c main_v3 (ix2 d e)) (fun e => V c main_v4 (ix2 (0 : Fin 1) e))
    (⟨t.val / 8, by omega⟩ : Fin 4) (⟨t.val % 8, by omega⟩ : Fin 8)
    (fun r d => qblk_apply V c t r d _ _ rfl rfl) (fun s d => kblk_apply V c t s d _ rfl) (fun s d => vblk_apply V c t s d _ rfl)
    (fun d e => wblk_apply V c t d e) (fun e => bblk_apply V c t e) r e).trans ?_
  have hi : ((cfg1.win 5).blk t).view.emb (ix3 (0 : Fin 1) r e)
      = ix3 (⟨t.val / 8, by omega⟩ : Fin 4) (Tile.rowOf (⟨t.val % 8, by omega⟩ : Fin 8) r) e :=
    funext fun a => Fin.ext (by
      match a with
      | ⟨0, _⟩ => show win1_5.index t (0 : Fin 3) * 1 + 1 * (0 : Fin 1).val = t.val / 8; rw [e0]; simp
      | ⟨1, _⟩ => show win1_5.index t (1 : Fin 3) * 256 + 1 * r.val = 256 * (t.val % 8) + r.val; rw [e1]; omega
      | ⟨2, _⟩ => show win1_5.index t (2 : Fin 3) * 768 + 1 * e.val = e.val; rw [e2]; omega)
  rw [hi]
  rfl

/-- An index lies in a point's block iff each coordinate lies in the block's range on its axis. -/
theorem mem_blk (t : Fin cfg1.N) (i : S4x2048x768.Idx) :
    i ∈ ((cfg1.win 5).blk t).view.set ↔ ∀ a : Fin 3, win1_5.index t a * S1x256x768.size a ≤ (i a).val ∧ (i a).val < win1_5.index t a * S1x256x768.size a + S1x256x768.size a := by
  show i ∈ ((View.whole main_v6).slice (win1_5.rect t)).set ↔ _
  rw [View.set_slice_whole, Rect.mem_set_unit]
  exact Iff.rfl

/-- Every result row lies in the block of the point (batch entry, row / 256). -/
theorem cover (i : S4x2048x768.Idx) : ∃ t : Fin cfg1.N, (cfg1.win 5).flush t = true ∧ i ∈ ((cfg1.win 5).blk t).view.set := by
  have h0 : (i 0).val < 4 := (i 0).isLt
  have h1 : (i 1).val < 2048 := (i 1).isLt
  have h2 : (i 2).val < 768 := (i 2).isLt
  have hN : cfg1.N = 32 := N_1
  refine ⟨⟨(i 0).val * 8 + (i 1).val / 256, by rw [hN]; omega⟩, flush1_5 _, ?_⟩
  rw [mem_blk]
  obtain ⟨-, -, -, -, -, ⟨e0, e1, e2⟩⟩ := idx_facts ⟨(i 0).val * 8 + (i 1).val / 256, by rw [hN]; omega⟩
  intro a
  match a with
  | ⟨0, _⟩ =>
    show win1_5.index _ (0 : Fin 3) * 1 ≤ (i 0).val ∧ (i 0).val < win1_5.index _ (0 : Fin 3) * 1 + 1
    rw [e0]
    show ((i 0).val * 8 + (i 1).val / 256) / 8 * 1 ≤ (i 0).val ∧ (i 0).val < ((i 0).val * 8 + (i 1).val / 256) / 8 * 1 + 1
    omega
  | ⟨1, _⟩ =>
    show win1_5.index _ (1 : Fin 3) * 256 ≤ (i 1).val ∧ (i 1).val < win1_5.index _ (1 : Fin 3) * 256 + 256
    rw [e1]
    show ((i 0).val * 8 + (i 1).val / 256) % 8 * 256 ≤ (i 1).val ∧ (i 1).val < ((i 0).val * 8 + (i 1).val / 256) % 8 * 256 + 256
    omega
  | ⟨2, _⟩ =>
    show win1_5.index _ (2 : Fin 3) * 768 ≤ (i 2).val ∧ (i 2).val < win1_5.index _ (2 : Fin 3) * 768 + 768
    rw [e2]; omega

/-- The result array after the second stage. -/
theorem final (c : Dev nD) : (dat1 V c).arrAt 5 cfg1.N = G V c :=
  (dat1 V c).arrAt_eq_of_cover 5 _ (fun t _ => flushed_eq V c t) cover

end Cert.Attn.Stage2

end
-- ==== Proof.KernelRun.lean ====
/-
  The kernel's run, read: after every weakly fair execution the result buffer holds the specification's result
  of the four argument arrays, and the arguments are as launched.

  The program is a stretch of host operations (two transposes and a reshape), the first stage and the second stage.
  The contents of every buffer at each boundary are a fold from the launch memory; the result buffer is the second
  stage's output array, so at the last boundary it is the second stage's function of the five arrays that stage
  found, which the first stage and the host stretch left as the specification's query, key and value arrays, the
  transposed output matrix and the bias row.
-/
import proofs.«111470_j2207613190171_2_alg».proof.Proof.Gen.KernelIdeal.Frame
import proofs.«111470_j2207613190171_2_alg».proof.Proof.Stage1
import proofs.«111470_j2207613190171_2_alg».proof.Proof.Stage2

set_option maxRecDepth 16384

noncomputable section

namespace Cert.Attn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The result as a function of the launch memory's argument arrays. -/
abbrev res (c : Dev nD) : S4x2048x768.Idx → EReal :=
  Cert.Attn.resultArr (m ((c : Thread nD τ).loc main_arg0)) (m ((c : Thread nD τ).loc main_arg1))
    (m ((c : Thread nD τ).loc main_arg2)) (m ((c : Thread nD τ).loc main_arg3))

/-- What the second stage computes from what it finds is the whole function of the arguments. -/
theorem G_eq (c : Dev nD) : Stage2.G (V2 m ρ) c = res m c := by
  show Cert.Attn.stage2Arr (V2 m ρ c (Pipeline.arrRef spec1 0)) (V2 m ρ c (Pipeline.arrRef spec1 1))
    (V2 m ρ c (Pipeline.arrRef spec1 2)) (V2 m ρ c (Pipeline.arrRef spec1 3)) (V2 m ρ c (Pipeline.arrRef spec1 4)) = _
  rw [Stage1.found0, Stage1.found1, Stage1.found2, Stage1.found3, Stage1.found4]
  exact Cert.Attn.stage2Arr_eq _ _ _ _

/-- The result buffer at the last boundary. -/
theorem W3_main_v6 (c : Dev nD) : W3 m ρ c (Proc.devRef .tc main_v6) = res m c :=
  (W3_arr m ρ c 5).trans ((Stage2.final (V2 m ρ) c).trans (G_eq m ρ c))

set_option backward.isDefEq.respectTransparency.types false in
/-- The run: every weakly fair execution terminates, nothing faulting, the result buffer at the specification's
    result and the argument arrays as launched. -/
theorem run : θ_run defs (onTc (τ := τ) (main (F := Ideal))) ⟨m, fun _ => 0, ρ⟩ (fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v6 (by decide))).trans (W3_main_v6 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Attn.Run

end
-- ==== Proof.RefSide.lean ====
/-
  The reference program computes the specification.

  The reference is a chain of whole-array operations: one projection of every token by the 2304 x 768 matrix; a
  re-laying of each projected row as 3 x 12 x 64 (third, head, lane), so that entry 768 a + 64 h + j of the row sits at
  (a, h, j); the three thirds, with the token and head axes exchanged, as queries, keys and values at (batch, head,
  token, lane); the 64-lane inner products of a query token with every key token, divided by the square root of 64;
  the row maximum, the exponentials of the shifted scores, their row sum and the quotient; the weighted sum of the
  value tokens; the head outputs laid side by side again (feature d is lane d % 64 of head d / 64); and the output
  projection plus the bias row. Each lemma below reads one of these arrays at explicit coordinates and names it by
  the specification's function of the same coordinates; the last one is the whole result.
-/
import proofs.«111470_j2207613190171_2_alg».proof.Proof.Gen.ReferenceIdeal.Read
import proofs.«111470_j2207613190171_2_alg».proof.Proof.Spec

noncomputable section

namespace Cert.Attn.Ref

open Cert.ReferenceIdeal Cert.ReferenceIdeal.Gen Cert.ReferenceIdeal.Read Idealize.ShloMosaic Idealize.ShloMosaic.ValueIdx

variable (x0 : (⟨S4x2048x768, .f32⟩ : BufTy).Contents (Elt Ideal)) (x1 : (⟨S2304x768, .f32⟩ : BufTy).Contents (Elt Ideal))

/-- The queries, keys and values of the specification, of the two arguments they depend on. -/
abbrev Q : Rows := qOf (rows x0) (mat x1)
abbrev K : Rows := kOf (rows x0) (mat x1)
abbrev V : Rows := vOf (rows x0) (mat x1)

/-! ## The projection -/

theorem lidx0 (b : Fin 4) (s : Fin 2048) (e : Fin 2304) (k : Fin 768) : lidx_main_v0 (ix3 b s e) k = ix3 b s k :=
  funext fun a => by match a with | ⟨0, _⟩ => rfl | ⟨1, _⟩ => rfl | ⟨2, _⟩ => rfl

theorem ridx0 (b : Fin 4) (s : Fin 2048) (e : Fin 2304) (k : Fin 768) : ridx_main_v0 (ix3 b s e) k = ix2 e k :=
  funext fun a => by match a with | ⟨0, _⟩ => rfl | ⟨1, _⟩ => rfl

/-- Entry e of the projected row of token (b, s). -/
theorem v0_at (b : Fin 4) (s : Fin 2048) (e : Fin 2304) :
    val_main_v0 (F := Ideal) x0 x1 (ix3 b s e) = proj (rows x0) (mat x1) b s e := by
  rw [val_main_v0_apply]
  refine Finset.sum_congr rfl fun k _ => ?_
  rw [lidx0, ridx0]
  rfl

/-- Row-major position ((((b 2048 + s) 3 + a) 12 + h) 64 + j of the 5-axis array is position
    (b 2048 + s) 2304 + (768 a + 64 h + j) of the 3-axis one. -/
theorem idx1 (b : Fin 4) (s : Fin 2048) (a : Fin 3) (h : Fin 12) (j : Fin 64) :
    idx_main_v1 (ix5 b s a h j) = ix3 b s (⟨768 * a.val + 64 * h.val + j.val, by omega⟩ : Fin 2304) :=
  funext fun c => Fin.ext (by
    match c with
    | ⟨0, _⟩ => show ((((b.val * 2048 + s.val) * 3 + a.val) * 12 + h.val) * 64 + j.val) / 4718592 = b.val; omega
    | ⟨1, _⟩ => show ((((b.val * 2048 + s.val) * 3 + a.val) * 12 + h.val) * 64 + j.val) / 2304 % 2048 = s.val; omega
    | ⟨2, _⟩ => show ((((b.val * 2048 + s.val) * 3 + a.val) * 12 + h.val) * 64 + j.val) % 2304 = 768 * a.val + 64 * h.val + j.val; omega)

/-- Lane j of head h of third a of token (b, s)'s projected row. -/
theorem v1_at (b : Fin 4) (s : Fin 2048) (a : Fin 3) (h : Fin 12) (j : Fin 64) :
    val_main_v1 (F := Ideal) x0 x1 (ix5 b s a h j)
      = proj (rows x0) (mat x1) b s (⟨768 * a.val + 64 * h.val + j.val, by omega⟩ : Fin 2304) := by
  rw [val_main_v1_apply, idx1, v0_at]

/-! ## Queries, keys and values at (batch, head, token, lane) -/

/-- Exchanging the token and head axes. -/
theorem idxT (b : Fin 4) (h : Fin 12) (s : Fin 2048) (j : Fin 64) : idx_main_v4 (ix4 b h s j) = ix4 b s h j :=
  funext fun a => by match a with | ⟨0, _⟩ => rfl | ⟨1, _⟩ => rfl | ⟨2, _⟩ => rfl | ⟨3, _⟩ => rfl

/-- Dropping the one-element axis of a selected third keeps the other coordinates. -/
theorem idxR (b : Fin 4) (s : Fin 2048) (h : Fin 12) (j : Fin 64) :
    idx_main_v3 (ix4 b s h j) = ix5 b s (0 : Fin 1) h j :=
  funext fun c => Fin.ext (by
    match c with
    | ⟨0, _⟩ => show (((b.val * 2048 + s.val) * 12 + h.val) * 64 + j.val) / 1572864 = b.val; omega
    | ⟨1, _⟩ => show (((b.val * 2048 + s.val) * 12 + h.val) * 64 + j.val) / 768 % 2048 = s.val; omega
    | ⟨2, _⟩ => rfl
    | ⟨3, _⟩ => show (((b.val * 2048 + s.val) * 12 + h.val) * 64 + j.val) / 64 % 12 = h.val; omega
    | ⟨4, _⟩ => show (((b.val * 2048 + s.val) * 12 + h.val) * 64 + j.val) % 64 = j.val; omega)

theorem idxS0 (b : Fin 4) (s : Fin 2048) (h : Fin 12) (j : Fin 64) :
    idx_main_v2 (ix5 b s (0 : Fin 1) h j) = ix5 b s (0 : Fin 3) h j :=
  funext fun a => by match a with | ⟨0, _⟩ => rfl | ⟨1, _⟩ => rfl | ⟨2, _⟩ => rfl | ⟨3, _⟩ => rfl | ⟨4, _⟩ => rfl

theorem idxS1 (b : Fin 4) (s : Fin 2048) (h : Fin 12) (j : Fin 64) :
    idx_main_v5 (ix5 b s (0 : Fin 1) h j) = ix5 b s (1 : Fin 3) h j :=
  funext fun a => by match a with | ⟨0, _⟩ => rfl | ⟨1, _⟩ => rfl | ⟨2, _⟩ => rfl | ⟨3, _⟩ => rfl | ⟨4, _⟩ => rfl

theorem idxS2 (b : Fin 4) (s : Fin 2048) (h : Fin 12) (j : Fin 64) :
    idx_main_v8 (ix5 b s (0 : Fin 1) h j) = ix5 b s (2 : Fin 3) h j :=
  funext fun a => by match a with | ⟨0, _⟩ => rfl | ⟨1, _⟩ => rfl | ⟨2, _⟩ => rfl | ⟨3, _⟩ => rfl | ⟨4, _⟩ => rfl

/-- The first third of the projected row holds the queries. -/
theorem v4_at (b : Fin 4) (h : Fin 12) (s : Fin 2048) (j : Fin 64) :
    val_main_v4 (F := Ideal) x0 x1 (ix4 b h s j) = Q x0 x1 b s (col h j) := by
  rw [val_main_v4_apply, idxT, val_main_v3_apply, idxR, val_main_v2_apply, idxS0, v1_at]
  exact congrArg (proj (rows x0) (mat x1) b s) (Fin.ext (by show 768 * 0 + 64 * h.val + j.val = 64 * h.val + j.val; omega))

/-- The second third holds the keys. -/
theorem v7_at (b : Fin 4) (h : Fin 12) (s : Fin 2048) (j : Fin 64) :
    val_main_v7 (F := Ideal) x0 x1 (ix4 b h s j) = K x0 x1 b s (col h j) := by
  rw [val_main_v7_apply, show idx_main_v7 (ix4 b h s j) = ix4 b s h j from idxT b h s j,
    val_main_v6_apply, show idx_main_v6 (ix4 b s h j) = ix5 b s (0 : Fin 1) h j from idxR b s h j,
    val_main_v5_apply, idxS1, v1_at]
  exact congrArg (proj (rows x0) (mat x1) b s) (Fin.ext (by show 768 * 1 + 64 * h.val + j.val = 768 + (64 * h.val + j.val); omega))

/-- The last third holds the values. -/
theorem v10_at (b : Fin 4) (h : Fin 12) (s : Fin 2048) (j : Fin 64) :
    val_main_v10 (F := Ideal) x0 x1 (ix4 b h s j) = V x0 x1 b s (col h j) := by
  rw [val_main_v10_apply, show idx_main_v10 (ix4 b h s j) = ix4 b s h j from idxT b h s j,
    val_main_v9_apply, show idx_main_v9 (ix4 b s h j) = ix5 b s (0 : Fin 1) h j from idxR b s h j,
    val_main_v8_apply, idxS2, v1_at]
  exact congrArg (proj (rows x0) (mat x1) b s) (Fin.ext (by show 768 * 2 + 64 * h.val + j.val = 1536 + (64 * h.val + j.val); omega))

/-! ## Scores -/

theorem lidx11 (b : Fin 4) (h : Fin 12) (s t : Fin 2048) (k : Fin 64) : lidx_main_v11 (ix4 b h s t) k = ix4 b h s k :=
  funext fun a => by match a with | ⟨0, _⟩ => rfl | ⟨1, _⟩ => rfl | ⟨2, _⟩ => rfl | ⟨3, _⟩ => rfl

theorem ridx11 (b : Fin 4) (h : Fin 12) (s t : Fin 2048) (k : Fin 64) : ridx_main_v11 (ix4 b h s t) k = ix4 b h t k :=
  funext fun a => by match a with | ⟨0, _⟩ => rfl | ⟨1, _⟩ => rfl | ⟨2, _⟩ => rfl | ⟨3, _⟩ => rfl

/-- The inner product of query token s and key token t over the 64 lanes of head h. -/
theorem v11_at (b : Fin 4) (h : Fin 12) (s t : Fin 2048) :
    val_main_v11 (F := Ideal) x0 x1 (ix4 b h s t) = ∑ d : Fin 64, Q x0 x1 b s (col h d) * K x0 x1 b t (col h d) := by
  rw [val_main_v11_apply]
  refine Finset.sum_congr rfl fun k _ => ?_
  rw [lidx11, ridx11, v4_at, v7_at]

/-- The divisor everywhere: the square root of the literal 64. -/
theorem v13_at (i : S4x12x2048x2048.Idx) :
    val_main_v13 (F := Ideal) i = Ideal.sqrt (Ideal.ofBits .f32 0x42800000#32) := by
  rw [val_main_v13_apply, val_main_v12_apply, val_main_cst_apply]
  rfl

/-- Dividing by the square root of 64 is the specification's scaling by 1/8. -/
theorem v14_at (b : Fin 4) (h : Fin 12) (s t : Fin 2048) :
    val_main_v14 (F := Ideal) x0 x1 (ix4 b h s t) = score (Q x0 x1) (K x0 x1) b h s t := by
  rw [val_main_v14_apply, v13_at, v11_at]
  show Ideal.div _ _ = _
  rw [div_sqrt_64]
  rfl

/-! ## The row maximum -/

/-- The key-token axis is the one the maximum (and later the sum) runs over. -/
theorem dropsKeys : S4x12x2048x2048.Reduces [3] S4x12x2048 := by decide

/-- The row (b, h, s) with key token k put back. -/
theorem lift_at (b : Fin 4) (h : Fin 12) (s : Fin 2048) (k : Fin (S4x12x2048x2048.size 3)) :
    dropsKeys.lift (ix3 b h s) k = ix4 b h s (⟨k.val, k.isLt⟩ : Fin 2048) := by
  funext c; apply Fin.ext
  fin_cases c <;> rfl

/-- The fold of the maximum over the key tokens, started from the literal -inf, which is the bottom element. -/
theorem v15_at (b : Fin 4) (h : Fin 12) (s : Fin 2048) :
    val_main_v15 (F := Ideal) x0 x1 (ix3 b h s) = rowMax (Q x0 x1) (K x0 x1) b h s := by
  unfold val_main_v15
  rw [Host.reduce_eq_fold_single FloatOps.maximumf _ _ reducesTo_S4x12x2048x2048_S4x12x2048_d3 dropsKeys h_S_]
  have hf : (val_main_v14 (F := Ideal) x0 x1 ∘ dropsKeys.lift (ix3 b h s))
      = fun t : Fin 2048 => score (Q x0 x1) (K x0 x1) b h s t :=
    funext fun t => by
      show val_main_v14 (F := Ideal) x0 x1 (dropsKeys.lift (ix3 b h s) t) = _
      rw [lift_at, v14_at]
      rfl
  refine (congrArg (fun f => Finset.fold max (Ideal.ofBits .f32 0xFF800000#32) f (Finset.univ : Finset (Fin 2048))) hf).trans ?_
  rw [ofBits_neg_inf]
  rfl

theorem v16_at (i : S4x12x2048.Idx) : val_main_v16 (F := Ideal) i = (⊥ : EReal) := by
  rw [val_main_v16_apply, val_main_cst_1_apply]
  exact ofBits_neg_inf

/-- Taking the maximum with -inf once more changes nothing. -/
theorem v17_at (b : Fin 4) (h : Fin 12) (s : Fin 2048) :
    val_main_v17 (F := Ideal) x0 x1 (ix3 b h s) = rowMax (Q x0 x1) (K x0 x1) b h s := by
  rw [val_main_v17_apply, v16_at, v15_at]
  exact max_eq_right bot_le

theorem idx1819 (b : Fin 4) (h : Fin 12) (s t : Fin 2048) : idx_main_v18 (idx_main_v19 (ix4 b h s t)) = ix3 b h s :=
  funext fun a => by match a with | ⟨0, _⟩ => rfl | ⟨1, _⟩ => rfl | ⟨2, _⟩ => rfl

/-- The row maximum repeated along the key tokens. -/
theorem v19_at (b : Fin 4) (h : Fin 12) (s t : Fin 2048) :
    val_main_v19 (F := Ideal) x0 x1 (ix4 b h s t) = rowMax (Q x0 x1) (K x0 x1) b h s := by
  rw [val_main_v19_apply, val_main_v18_apply, idx1819, v17_at]

/-! ## Weights, their sum and the softmax -/

theorem v21_at (b : Fin 4) (h : Fin 12) (s t : Fin 2048) :
    val_main_v21 (F := Ideal) x0 x1 (ix4 b h s t) = weight (Q x0 x1) (K x0 x1) b h s t := by
  rw [val_main_v21_apply, val_main_v20_apply, v14_at, v19_at]
  rfl

theorem idx22 (b : Fin 4) (h : Fin 12) (s : Fin 2048) (k : Fin 2048) : idx_main_v22 (ix3 b h s) k = ix4 b h s k :=
  funext fun a => by match a with | ⟨0, _⟩ => rfl | ⟨1, _⟩ => rfl | ⟨2, _⟩ => rfl | ⟨3, _⟩ => rfl

/-- The sum over the key tokens, started from the literal zero. -/
theorem v22_at (b : Fin 4) (h : Fin 12) (s : Fin 2048) :
    val_main_v22 (F := Ideal) x0 x1 (ix3 b h s) = denom (Q x0 x1) (K x0 x1) b h s := by
  rw [val_main_v22_apply, val_main_cst_2_apply]
  show Ideal.ofBits .f32 0x00000000#32 + _ = _
  rw [Ideal.ofBits_zero_f32, zero_add]
  refine Finset.sum_congr rfl fun k _ => ?_
  rw [idx22, v21_at]

theorem idx2324 (b : Fin 4) (h : Fin 12) (s t : Fin 2048) : idx_main_v23 (idx_main_v24 (ix4 b h s t)) = ix3 b h s :=
  funext fun a => by match a with | ⟨0, _⟩ => rfl | ⟨1, _⟩ => rfl | ⟨2, _⟩ => rfl

theorem v24_at (b : Fin 4) (h : Fin 12) (s t : Fin 2048) :
    val_main_v24 (F := Ideal) x0 x1 (ix4 b h s t) = denom (Q x0 x1) (K x0 x1) b h s := by
  rw [val_main_v24_apply, val_main_v23_apply, idx2324, v22_at]

theorem v25_at (b : Fin 4) (h : Fin 12) (s t : Fin 2048) :
    val_main_v25 (F := Ideal) x0 x1 (ix4 b h s t) = prob (Q x0 x1) (K x0 x1) b h s t := by
  rw [val_main_v25_apply, v21_at, v24_at]
  rfl

/-! ## The head outputs, side by side -/

theorem lidx26 (b : Fin 4) (h : Fin 12) (s : Fin 2048) (j : Fin 64) (k : Fin 2048) :
    lidx_main_v26 (ix4 b h s j) k = ix4 b h s k :=
  funext fun a => by match a with | ⟨0, _⟩ => rfl | ⟨1, _⟩ => rfl | ⟨2, _⟩ => rfl | ⟨3, _⟩ => rfl

theorem ridx26 (b : Fin 4) (h : Fin 12) (s : Fin 2048) (j : Fin 64) (k : Fin 2048) :
    ridx_main_v26 (ix4 b h s j) k = ix4 b h k j :=
  funext fun a => by match a with | ⟨0, _⟩ => rfl | ⟨1, _⟩ => rfl | ⟨2, _⟩ => rfl | ⟨3, _⟩ => rfl

/-- Lane j of head h's output for query token s: the value tokens averaged with the softmax weights. -/
theorem v26_at (b : Fin 4) (h : Fin 12) (s : Fin 2048) (j : Fin 64) :
    val_main_v26 (F := Ideal) x0 x1 (ix4 b h s j) = mix (Q x0 x1) (K x0 x1) (V x0 x1) b s h j := by
  rw [val_main_v26_apply]
  refine Finset.sum_congr rfl fun k _ => ?_
  rw [lidx26, ridx26, v25_at, v10_at]

theorem idx27 (b : Fin 4) (s : Fin 2048) (h : Fin 12) (j : Fin 64) : idx_main_v27 (ix4 b s h j) = ix4 b h s j :=
  funext fun a => by match a with | ⟨0, _⟩ => rfl | ⟨1, _⟩ => rfl | ⟨2, _⟩ => rfl | ⟨3, _⟩ => rfl

/-- Row-major position (b 2048 + s) 768 + d is position ((b 2048 + s) 12 + d / 64) 64 + d % 64. -/
theorem idx28 (b : Fin 4) (s : Fin 2048) (d : Fin 768) : idx_main_v28 (ix3 b s d) = ix4 b s (hd d) (lane d) :=
  funext fun c => Fin.ext (by
    match c with
    | ⟨0, _⟩ => show ((b.val * 2048 + s.val) * 768 + d.val) / 1572864 = b.val; omega
    | ⟨1, _⟩ => show ((b.val * 2048 + s.val) * 768 + d.val) / 768 % 2048 = s.val; omega
    | ⟨2, _⟩ => show ((b.val * 2048 + s.val) * 768 + d.val) / 64 % 12 = d.val / 64; omega
    | ⟨3, _⟩ => show ((b.val * 2048 + s.val) * 768 + d.val) % 64 = d.val % 64; omega)

/-- Feature d of the concatenated row of token (b, s) is lane d % 64 of head d / 64's output. -/
theorem v28_at (b : Fin 4) (s : Fin 2048) (d : Fin 768) :
    val_main_v28 (F := Ideal) x0 x1 (ix3 b s d) = mix (Q x0 x1) (K x0 x1) (V x0 x1) b s (hd d) (lane d) := by
  rw [val_main_v28_apply, idx28, val_main_v27_apply, idx27, v26_at]

/-! ## The output projection and the bias -/

variable (x2 : (⟨S768x768, .f32⟩ : BufTy).Contents (Elt Ideal)) (x3 : (⟨S768, .f32⟩ : BufTy).Contents (Elt Ideal))

theorem lidx29 (b : Fin 4) (s : Fin 2048) (e : Fin 768) (k : Fin 768) : lidx_main_v29 (ix3 b s e) k = ix3 b s k :=
  funext fun a => by match a with | ⟨0, _⟩ => rfl | ⟨1, _⟩ => rfl | ⟨2, _⟩ => rfl

theorem ridx29 (b : Fin 4) (s : Fin 2048) (e : Fin 768) (k : Fin 768) : ridx_main_v29 (ix3 b s e) k = ix2 e k :=
  funext fun a => by match a with | ⟨0, _⟩ => rfl | ⟨1, _⟩ => rfl

theorem v29_at (b : Fin 4) (s : Fin 2048) (e : Fin 768) :
    val_main_v29 (F := Ideal) x0 x1 x2 (ix3 b s e)
      = ∑ d : Fin 768, mix (Q x0 x1) (K x0 x1) (V x0 x1) b s (hd d) (lane d) * mat x2 e d := by
  rw [val_main_v29_apply]
  refine Finset.sum_congr rfl fun k _ => ?_
  rw [lidx29, ridx29, v28_at]
  rfl

theorem idx3031 (b : Fin 4) (s : Fin 2048) (e : Fin 768) : idx_main_v30 (idx_main_v31 (ix3 b s e)) = ix1 e :=
  funext fun a => by match a with | ⟨0, _⟩ => rfl

/-- The bias, repeated over batch entries and tokens. -/
theorem v31_at (b : Fin 4) (s : Fin 2048) (e : Fin 768) : val_main_v31 (F := Ideal) x3 (ix3 b s e) = vec x3 e := by
  rw [val_main_v31_apply, val_main_v30_apply, idx3031]
  rfl

/-- The result at explicit coordinates. -/
theorem v32_at (b : Fin 4) (s : Fin 2048) (e : Fin 768) :
    val_main_v32 (F := Ideal) x0 x1 x2 x3 (ix3 b s e) = result (rows x0) (mat x1) (mat x2) (vec x3) b s e := by
  rw [val_main_v32_apply, v29_at, v31_at]
  rfl

/-- The reference's result array is the specification's. -/
theorem ref_eq : Cert.ReferenceIdeal.Read.val_main_v32 (F := Ideal) x0 x1 x2 x3 = Cert.Attn.resultArr x0 x1 x2 x3 := by
  funext i
  obtain ⟨b, s, e, rfl⟩ : ∃ (b : Fin 4) (s : Fin 2048) (e : Fin 768), i = ix3 b s e := ⟨i 0, i 1, i 2, eq_ix3 i⟩
  exact v32_at x0 x1 x2 x3 b s e

end Cert.Attn.Ref

end
-- ==== Proof.lean ====
/-
  The proof of `Cert.Claim`: a multi-head attention layer computed in two tiled stages on the chip against its
  plain formulation, over the extended reals.

  Both programs compute one function of the four arguments (Proof/Spec.lean): the tokens are projected to queries,
  keys and values; per batch entry and head a softmax of the scaled query-key scores averages the values; the heads
  side by side go through the output matrix and the bias. The kernel's first stage computes the projection in
  blocks of 512 tokens (Proof/Stage1.lean), its second stage the attention and the output projection for tiles of
  256 tokens, head by head (Proof/Head.lean, Proof/Tile.lean, Proof/Stage2.lean), and the run of the whole program
  leaves the result buffer at that function of the arguments (Proof/KernelRun.lean). The reference's operations, one
  at a time, are the same function (Proof/RefSide.lean). The two differ in text only by a factor: the kernel
  multiplies the scores by 1/8 where the reference divides them by the square root of 64, which is 8, and a
  division by 8 is the product with 1/8 on every extended real; a sum taken in blocks, or a maximum started from the
  bottom element and then compared with it again, is the same sum and the same maximum. No finiteness of the
  inputs is used: every step is an identity of the extended reals.

  The frames of the two kernel programs are the generated ones; the reference's frame is its generated run with
  the result dropped; nothing was rewritten by the idealization, so that conjunct is trivial.
-/
import proofs.«111470_j2207613190171_2_alg».proof.Defs
import proofs.«111470_j2207613190171_2_alg».proof.Proof.Gen.Kernel
import proofs.«111470_j2207613190171_2_alg».proof.Proof.Gen.Kernel.Skeleton
import proofs.«111470_j2207613190171_2_alg».proof.Proof.Gen.Kernel.Launch
import proofs.«111470_j2207613190171_2_alg».proof.Proof.Gen.Kernel.Points
import proofs.«111470_j2207613190171_2_alg».proof.Proof.Gen.Kernel.Frame
import proofs.«111470_j2207613190171_2_alg».proof.Proof.Gen.KernelIdeal
import proofs.«111470_j2207613190171_2_alg».proof.Proof.Gen.KernelIdeal.Skeleton
import proofs.«111470_j2207613190171_2_alg».proof.Proof.Gen.KernelIdeal.Launch
import proofs.«111470_j2207613190171_2_alg».proof.Proof.Gen.KernelIdeal.Points
import proofs.«111470_j2207613190171_2_alg».proof.Proof.Gen.KernelIdeal.Frame
import proofs.«111470_j2207613190171_2_alg».proof.Proof.Gen.ReferenceIdeal
import proofs.«111470_j2207613190171_2_alg».proof.Proof.Gen.Pre_finite_inputs
import proofs.«111470_j2207613190171_2_alg».proof.Proof.Gen.ReferenceIdeal.Run
import proofs.«111470_j2207613190171_2_alg».proof.Proof.Gen.ReferenceIdeal.Read
import proofs.«111470_j2207613190171_2_alg».proof.Proof.KernelRun
import proofs.«111470_j2207613190171_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result buffer at the one function of
    the arguments: the kernel by its run read through the two stages, the reference by its operations read one
    at a time. -/
theorem algebraic : Cert.algebraic_KernelIdeal_ReferenceIdeal := by
  intro m ρ m' ρ' _ hagree
  refine ⟨fun c => Cert.Attn.Run.res m c, Cert.Attn.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Attn.Ref.ref_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
